-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x30 : Shape := ⟨2, ![262144, 30]⟩
abbrev S30x32 : Shape := ⟨2, ![30, 32]⟩
abbrev S1x32 : Shape := ⟨2, ![1, 32]⟩
abbrev S32x16 : Shape := ⟨2, ![32, 16]⟩
abbrev S1x16 : Shape := ⟨2, ![1, 16]⟩
abbrev S16x8 : Shape := ⟨2, ![16, 8]⟩
abbrev S1x8 : Shape := ⟨2, ![1, 8]⟩
abbrev S8x1 : Shape := ⟨2, ![8, 1]⟩
abbrev S1x1 : Shape := ⟨2, ![1, 1]⟩
abbrev S_ : Shape := ⟨0, ![]⟩

class Facts : Prop where
  bcast_S_S262144x30 : S_.BroadcastsInDim S262144x30 (![] : Fin 0 → Fin S262144x30.rank)
  reducesTo_S262144x30_S_d0_1 : S262144x30.ReducesTo [0, 1] S_
  h_S_ : 0 < S_.numel
  bcast_S_S30x32 : S_.BroadcastsInDim S30x32 (![] : Fin 0 → Fin S30x32.rank)
  reducesTo_S30x32_S_d0_1 : S30x32.ReducesTo [0, 1] S_
  bcast_S_S1x32 : S_.BroadcastsInDim S1x32 (![] : Fin 0 → Fin S1x32.rank)
  reducesTo_S1x32_S_d0_1 : S1x32.ReducesTo [0, 1] S_
  bcast_S_S32x16 : S_.BroadcastsInDim S32x16 (![] : Fin 0 → Fin S32x16.rank)
  reducesTo_S32x16_S_d0_1 : S32x16.ReducesTo [0, 1] S_
  bcast_S_S1x16 : S_.BroadcastsInDim S1x16 (![] : Fin 0 → Fin S1x16.rank)
  reducesTo_S1x16_S_d0_1 : S1x16.ReducesTo [0, 1] S_
  bcast_S_S16x8 : S_.BroadcastsInDim S16x8 (![] : Fin 0 → Fin S16x8.rank)
  reducesTo_S16x8_S_d0_1 : S16x8.ReducesTo [0, 1] S_
  bcast_S_S1x8 : S_.BroadcastsInDim S1x8 (![] : Fin 0 → Fin S1x8.rank)
  reducesTo_S1x8_S_d0_1 : S1x8.ReducesTo [0, 1] S_
  bcast_S_S8x1 : S_.BroadcastsInDim S8x1 (![] : Fin 0 → Fin S8x1.rank)
  reducesTo_S8x1_S_d0_1 : S8x1.ReducesTo [0, 1] S_
  bcast_S_S1x1 : S_.BroadcastsInDim S1x1 (![] : Fin 0 → Fin S1x1.rank)
  reducesTo_S1x1_S_d0_1 : S1x1.ReducesTo [0, 1] S_

variable [Facts]

def fn_part2 {F : FTy → Type} [FloatOps F] (main_arg7 : FVec F S8x1 .f32) (main_arg8 : FVec F S1x1 .f32) (main_v33 : IVec S_ 1) : IVec S_ 1 :=
  let main_v34 : FVec F S8x1 .f32 := Host.absf main_arg7
  let main_cst_12 : FVec F S_ .f32 := constant S_ .f32 0x7F800000#32
  let main_v35 : FVec F S8x1 .f32 := broadcastInDim S8x1 ![] bcast_S_S8x1 main_cst_12
  let main_v36 : IVec S8x1 1 := cmpf .olt main_v34 main_v35
  let main_c_13 : IVec S_ 1 := constantI S_ 1 1#1
  let main_v37 : IVec S_ 1 := (fun x v => Host.reduce IntOp.andi x v reducesTo_S8x1_S_d0_1 h_S_) main_v36 main_c_13
  let main_v38 : IVec S_ 1 := andi main_v33 main_v37
  let main_v39 : FVec F S1x1 .f32 := Host.absf main_arg8
  let main_cst_14 : FVec F S_ .f32 := constant S_ .f32 0x7F800000#32
  let main_v40 : FVec F S1x1 .f32 := broadcastInDim S1x1 ![] bcast_S_S1x1 main_cst_14
  let main_v41 : IVec S1x1 1 := cmpf .olt main_v39 main_v40
  let main_c_15 : IVec S_ 1 := constantI S_ 1 1#1
  let main_v42 : IVec S_ 1 := (fun x v => Host.reduce IntOp.andi x v reducesTo_S1x1_S_d0_1 h_S_) main_v41 main_c_15
  let main_v43 : IVec S_ 1 := andi main_v38 main_v42
  main_v43

def fn_part1 {F : FTy → Type} [FloatOps F] (main_arg4 : FVec F S1x16 .f32) (main_arg5 : FVec F S16x8 .f32) (main_arg6 : FVec F S1x8 .f32) (main_arg7 : FVec F S8x1 .f32) (main_arg8 : FVec F S1x1 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S1x16 .f32 := Host.absf main_arg4
  let main_cst_6 : FVec F S_ .f32 := constant S_ .f32 0x7F800000#32
  let main_v20 : FVec F S1x16 .f32 := broadcastInDim S1x16 ![] bcast_S_S1x16 main_cst_6
  let main_v21 : IVec S1x16 1 := cmpf .olt main_v19 main_v20
  let main_c_7 : IVec S_ 1 := constantI S_ 1 1#1
  let main_v22 : IVec S_ 1 := (fun x v => Host.reduce IntOp.andi x v reducesTo_S1x16_S_d0_1 h_S_) main_v21 main_c_7
  let main_v23 : IVec S_ 1 := andi main_v18 main_v22
  let main_v24 : FVec F S16x8 .f32 := Host.absf main_arg5
  let main_cst_8 : FVec F S_ .f32 := constant S_ .f32 0x7F800000#32
  let main_v25 : FVec F S16x8 .f32 := broadcastInDim S16x8 ![] bcast_S_S16x8 main_cst_8
  let main_v26 : IVec S16x8 1 := cmpf .olt main_v24 main_v25
  let main_c_9 : IVec S_ 1 := constantI S_ 1 1#1
  let main_v27 : IVec S_ 1 := (fun x v => Host.reduce IntOp.andi x v reducesTo_S16x8_S_d0_1 h_S_) main_v26 main_c_9
  let main_v28 : IVec S_ 1 := andi main_v23 main_v27
  let main_v29 : FVec F S1x8 .f32 := Host.absf main_arg6
  let main_cst_10 : FVec F S_ .f32 := constant S_ .f32 0x7F800000#32
  let main_v30 : FVec F S1x8 .f32 := broadcastInDim S1x8 ![] bcast_S_S1x8 main_cst_10
  let main_v31 : IVec S1x8 1 := cmpf .olt main_v29 main_v30
  let main_c_11 : IVec S_ 1 := constantI S_ 1 1#1
  let main_v32 : IVec S_ 1 := (fun x v => Host.reduce IntOp.andi x v reducesTo_S1x8_S_d0_1 h_S_) main_v31 main_c_11
  let main_v33 : IVec S_ 1 := andi main_v28 main_v32
  fn_part2 (F := F) main_arg7 main_arg8 main_v33

def fn {F : FTy → Type} [FloatOps F] (main_arg0 : FVec F S262144x30 .f32) (main_arg1 : FVec F S30x32 .f32) (main_arg2 : FVec F S1x32 .f32) (main_arg3 : FVec F S32x16 .f32) (main_arg4 : FVec F S1x16 .f32) (main_arg5 : FVec F S16x8 .f32) (main_arg6 : FVec F S1x8 .f32) (main_arg7 : FVec F S8x1 .f32) (main_arg8 : FVec F S1x1 .f32) : IVec S_ 1 :=
  let main_v0 : FVec F S262144x30 .f32 := Host.absf main_arg0
  let main_cst : FVec F S_ .f32 := constant S_ .f32 0x7F800000#32
  let main_v1 : FVec F S262144x30 .f32 := broadcastInDim S262144x30 ![] bcast_S_S262144x30 main_cst
  let main_v2 : IVec S262144x30 1 := cmpf .olt main_v0 main_v1
  let main_c : IVec S_ 1 := constantI S_ 1 1#1
  let main_v3 : IVec S_ 1 := (fun x v => Host.reduce IntOp.andi x v reducesTo_S262144x30_S_d0_1 h_S_) main_v2 main_c
  let main_v4 : FVec F S30x32 .f32 := Host.absf main_arg1
  let main_cst_0 : FVec F S_ .f32 := constant S_ .f32 0x7F800000#32
  let main_v5 : FVec F S30x32 .f32 := broadcastInDim S30x32 ![] bcast_S_S30x32 main_cst_0
  let main_v6 : IVec S30x32 1 := cmpf .olt main_v4 main_v5
  let main_c_1 : IVec S_ 1 := constantI S_ 1 1#1
  let main_v7 : IVec S_ 1 := (fun x v => Host.reduce IntOp.andi x v reducesTo_S30x32_S_d0_1 h_S_) main_v6 main_c_1
  let main_v8 : IVec S_ 1 := andi main_v3 main_v7
  let main_v9 : FVec F S1x32 .f32 := Host.absf main_arg2
  let main_cst_2 : FVec F S_ .f32 := constant S_ .f32 0x7F800000#32
  let main_v10 : FVec F S1x32 .f32 := broadcastInDim S1x32 ![] bcast_S_S1x32 main_cst_2
  let main_v11 : IVec S1x32 1 := cmpf .olt main_v9 main_v10
  let main_c_3 : IVec S_ 1 := constantI S_ 1 1#1
  let main_v12 : IVec S_ 1 := (fun x v => Host.reduce IntOp.andi x v reducesTo_S1x32_S_d0_1 h_S_) main_v11 main_c_3
  let main_v13 : IVec S_ 1 := andi main_v8 main_v12
  let main_v14 : FVec F S32x16 .f32 := Host.absf main_arg3
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg4 main_arg5 main_arg6 main_arg7 main_arg8 main_v13 main_v16
-- ==== Kernel.lean ====
abbrev S262144x30 : Shape := ⟨2, ![262144, 30]⟩
abbrev S30x32 : Shape := ⟨2, ![30, 32]⟩
abbrev S1x32 : Shape := ⟨2, ![1, 32]⟩
abbrev S32x16 : Shape := ⟨2, ![32, 16]⟩
abbrev S1x16 : Shape := ⟨2, ![1, 16]⟩
abbrev S16x8 : Shape := ⟨2, ![16, 8]⟩
abbrev S1x8 : Shape := ⟨2, ![1, 8]⟩
abbrev S8x1 : Shape := ⟨2, ![8, 1]⟩
abbrev S1x1 : Shape := ⟨2, ![1, 1]⟩
abbrev S32x30 : Shape := ⟨2, ![32, 30]⟩
abbrev S32x1 : Shape := ⟨2, ![32, 1]⟩
abbrev S16x32 : Shape := ⟨2, ![16, 32]⟩
abbrev S16x1 : Shape := ⟨2, ![16, 1]⟩
abbrev S8x16 : Shape := ⟨2, ![8, 16]⟩
abbrev S262144x1 : Shape := ⟨2, ![262144, 1]⟩
abbrev S16384x30 : Shape := ⟨2, ![16384, 30]⟩
abbrev S16384x1 : Shape := ⟨2, ![16384, 1]⟩
abbrev S32x16384 : Shape := ⟨2, ![32, 16384]⟩
abbrev S16x16384 : Shape := ⟨2, ![16, 16384]⟩
abbrev S8x16384 : Shape := ⟨2, ![8, 16384]⟩
abbrev S1x16384 : Shape := ⟨2, ![1, 16384]⟩

abbrev nBuf : Space → Nat
  | .hbm => 17
  | .vmem => 12
  | .smem => 0
  | _ => 0

abbrev bufTy : (tb : Table) → Fin (tcTables nBuf tb) → BufTy
  | .hbm, ⟨0, _⟩ => ⟨S262144x30, .f32⟩
  | .hbm, ⟨1, _⟩ => ⟨S30x32, .f32⟩
  | .hbm, ⟨2, _⟩ => ⟨S1x32, .f32⟩
  | .hbm, ⟨3, _⟩ => ⟨S32x16, .f32⟩
  | .hbm, ⟨4, _⟩ => ⟨S1x16, .f32⟩
  | .hbm, ⟨5, _⟩ => ⟨S16x8, .f32⟩
  | .hbm, ⟨6, _⟩ => ⟨S1x8, .f32⟩
  | .hbm, ⟨7, _⟩ => ⟨S8x1, .f32⟩
  | .hbm, ⟨8, _⟩ => ⟨S1x1, .f32⟩
  | .hbm, ⟨9, _⟩ => ⟨S32x30, .f32⟩
  | .hbm, ⟨10, _⟩ => ⟨S32x1, .f32⟩
  | .hbm, ⟨11, _⟩ => ⟨S16x32, .f32⟩
  | .hbm, ⟨12, _⟩ => ⟨S16x1, .f32⟩
  | .hbm, ⟨13, _⟩ => ⟨S8x16, .f32⟩
  | .hbm, ⟨14, _⟩ => ⟨S8x1, .f32⟩
  | .hbm, ⟨15, _⟩ => ⟨S1x8, .f32⟩
  | .hbm, ⟨16, _⟩ => ⟨S262144x1, .f32⟩
  | .local _ .vmem, ⟨0, _⟩ => ⟨S16384x30, .f32⟩
  | .local _ .vmem, ⟨1, _⟩ => ⟨S16384x30, .f32⟩
  | .local _ .vmem, ⟨2, _⟩ => ⟨S32x30, .f32⟩
  | .local _ .vmem, ⟨3, _⟩ => ⟨S32x1, .f32⟩
  | .local _ .vmem, ⟨4, _⟩ => ⟨S16x32, .f32⟩
  | .local _ .vmem, ⟨5, _⟩ => ⟨S16x1, .f32⟩
  | .local _ .vmem, ⟨6, _⟩ => ⟨S8x16, .f32⟩
  | .local _ .vmem, ⟨7, _⟩ => ⟨S8x1, .f32⟩
  | .local _ .vmem, ⟨8, _⟩ => ⟨S1x8, .f32⟩
  | .local _ .vmem, ⟨9, _⟩ => ⟨S1x1, .f32⟩
  | .local _ .vmem, ⟨10, _⟩ => ⟨S16384x1, .f32⟩
  | .local _ .vmem, ⟨11, _⟩ => ⟨S16384x1, .f32⟩
  | _, _ => ⟨S262144x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x30 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S16384x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S30x32_S32x30_1_0 : S30x32.Transposes [1, 0] S32x30
  transposes_S1x32_S32x1_1_0 : S1x32.Transposes [1, 0] S32x1
  transposes_S32x16_S16x32_1_0 : S32x16.Transposes [1, 0] S16x32
  transposes_S1x16_S16x1_1_0 : S1x16.Transposes [1, 0] S16x1
  transposes_S16x8_S8x16_1_0 : S16x8.Transposes [1, 0] S8x16
  transposes_S1x8_S8x1_1_0 : S1x8.Transposes [1, 0] S8x1
  transposes_S8x1_S1x8_1_0 : S8x1.Transposes [1, 0] S1x8
  inb_S32x30_S32x30_0_0 : ∀ a, (![0, 0] : Fin 2 → Nat) a + S32x30.size a ≤ S32x30.size a
  h_S32x30 : 0 < S32x30.numel
  shapeCasts_S32x30_S32x30 : S32x30.ShapeCasts S32x30
  inb_S16384x30_S16384x30_0_0 : ∀ a, (![0, 0] : Fin 2 → Nat) a + S16384x30.size a ≤ S16384x30.size a
  h_S16384x30 : 0 < S16384x30.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x16384 : S32x1.Broadcasts S32x16384
  inb_S16x32_S16x32_0_0 : ∀ a, (![0, 0] : Fin 2 → Nat) a + S16x32.size a ≤ S16x32.size a
  h_S16x32 : 0 < S16x32.numel
  shapeCasts_S16x32_S16x32 : S16x32.ShapeCasts S16x32
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x16384 : S16x1.Broadcasts S16x16384
  inb_S8x16_S8x16_0_0 : ∀ a, (![0, 0] : Fin 2 → Nat) a + S8x16.size a ≤ S8x16.size a
  h_S8x16 : 0 < S8x16.numel
  shapeCasts_S8x16_S8x16 : S8x16.ShapeCasts S8x16
  inb_S8x1_S8x1_0_0 : ∀ a, (![0, 0] : Fin 2 → Nat) a + S8x1.size a ≤ S8x1.size a
  h_S8x1 : 0 < S8x1.numel
  shapeCasts_S8x1_S8x1 : S8x1.ShapeCasts S8x1
  broadcasts_S8x1_S8x16384 : S8x1.Broadcasts S8x16384
  inb_S1x8_S1x8_0_0 : ∀ a, (![0, 0] : Fin 2 → Nat) a + S1x8.size a ≤ S1x8.size a
  h_S1x8 : 0 < S1x8.numel
  shapeCasts_S1x8_S1x8 : S1x8.ShapeCasts S1x8
  inb_S1x1_S1x1_0_0 : ∀ a, (![0, 0] : Fin 2 → Nat) a + S1x1.size a ≤ S1x1.size a
  h_S1x1 : 0 < S1x1.numel
  broadcasts_S1x1_S1x16384 : S1x1.Broadcasts S1x16384
  transposes_S1x16384_p1_0_S16384x1 : S1x16384.Transposes [1, 0] S16384x1
  inb_S16384x1_S16384x1_0_0 : ∀ a, (![0, 0] : Fin 2 → Nat) a + S16384x1.size a ≤ S16384x1.size a
  h_S16384x1 : 0 < S16384x1.numel
  dot_S32x30_S16384x30_S32x16384_1_1_0_0_n_n_wf : DotDims.WF S32x30 S16384x30 S32x16384 [1] [1] [0] [0] [] []
  dot_S16x32_S32x16384_S16x16384_1_0_0_1_n_n_wf : DotDims.WF S16x32 S32x16384 S16x16384 [1] [0] [0] [1] [] []
  dot_S8x16_S16x16384_S8x16384_1_0_0_1_n_n_wf : DotDims.WF S8x16 S16x16384 S8x16384 [1] [0] [0] [1] [] []
  dot_S1x8_S8x16384_S1x16384_1_0_0_1_n_n_wf : DotDims.WF S1x8 S8x16384 S1x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x30.size a ≤ S262144x30.size a
  hwx0_0 : ∀ i : grid0.Coords, EltTy.bits .f32 = 32 ∨ (Rect.block (s := S262144x30) S16384x30.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x30.size a ≤ S32x30.size a
  hwx0_1 : ∀ i : grid0.Coords, EltTy.bits .f32 = 32 ∨ (Rect.block (s := S32x30) S32x30.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S32x1.size a
  hwx0_2 : ∀ i : grid0.Coords, EltTy.bits .f32 = 32 ∨ (Rect.block (s := S32x1) S32x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x32.size a ≤ S16x32.size a
  hwx0_3 : ∀ i : grid0.Coords, EltTy.bits .f32 = 32 ∨ (Rect.block (s := S16x32) S16x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x1.size a ≤ S16x1.size a
  hwx0_4 : ∀ i : grid0.Coords, EltTy.bits .f32 = 32 ∨ (Rect.block (s := S16x1) S16x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x16.size a ≤ S8x16.size a
  hwx0_5 : ∀ i : grid0.Coords, EltTy.bits .f32 = 32 ∨ (Rect.block (s := S8x16) S8x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x1.size a ≤ S8x1.size a
  hwx0_6 : ∀ i : grid0.Coords, EltTy.bits .f32 = 32 ∨ (Rect.block (s := S8x1) S8x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x8.size a ≤ S1x8.size a
  hwx0_7 : ∀ i : grid0.Coords, EltTy.bits .f32 = 32 ∨ (Rect.block (s := S1x8) S1x8.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S16384x1.size a ≤ S262144x1.size a
  hwx0_9 : ∀ i : grid0.Coords, EltTy.bits .f32 = 32 ∨ (Rect.block (s := S262144x1) S16384x1.size (cc0_transform_9 i) (hinb0_9 i)).WholeWords (EltTy.packing .f32)

variable [Facts₀]

def dot_S32x30_S16384x30_S32x16384_1_1_0_0_n_n : DotDims S32x30 S16384x30 S32x16384 where
  lhsContracting := [1]
  rhsContracting := [1]
  lhsNonContracting := [0]
  rhsNonContracting := [0]
  lhsBatch := []
  rhsBatch := []
  wf := dot_S32x30_S16384x30_S32x16384_1_1_0_0_n_n_wf
def dot_S16x32_S32x16384_S16x16384_1_0_0_1_n_n : DotDims S16x32 S32x16384 S16x16384 where
  lhsContracting := [1]
  rhsContracting := [0]
  lhsNonContracting := [0]
  rhsNonContracting := [1]
  lhsBatch := []
  rhsBatch := []
  wf := dot_S16x32_S32x16384_S16x16384_1_0_0_1_n_n_wf
def dot_S8x16_S16x16384_S8x16384_1_0_0_1_n_n : DotDims S8x16 S16x16384 S8x16384 where
  lhsContracting := [1]
  rhsContracting := [0]
  lhsNonContracting := [0]
  rhsNonContracting := [1]
  lhsBatch := []
  rhsBatch := []
  wf := dot_S8x16_S16x16384_S8x16384_1_0_0_1_n_n_wf
def dot_S1x8_S8x16384_S1x16384_1_0_0_1_n_n : DotDims S1x8 S8x16384 S1x16384 where
  lhsContracting := [1]
  rhsContracting := [0]
  lhsNonContracting := [0]
  rhsNonContracting := [1]
  lhsBatch := []
  rhsBatch := []
  wf := dot_S1x8_S8x16384_S1x16384_1_0_0_1_n_n_wf

abbrev win0_0 : Pipeline.Window sig grid0 :=
  Pipeline.Window.ofSpec (Memref.whole main_arg0) S16384x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x30.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S32x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S16x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S16x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S8x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S8x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S16384x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S262144x30 : Shape := ⟨2, ![262144, 30]⟩
abbrev S30x32 : Shape := ⟨2, ![30, 32]⟩
abbrev S1x32 : Shape := ⟨2, ![1, 32]⟩
abbrev S32x16 : Shape := ⟨2, ![32, 16]⟩
abbrev S1x16 : Shape := ⟨2, ![1, 16]⟩
abbrev S16x8 : Shape := ⟨2, ![16, 8]⟩
abbrev S1x8 : Shape := ⟨2, ![1, 8]⟩
abbrev S8x1 : Shape := ⟨2, ![8, 1]⟩
abbrev S1x1 : Shape := ⟨2, ![1, 1]⟩
abbrev S262144x1 : Shape := ⟨2, ![262144, 1]⟩
abbrev S2048x30 : Shape := ⟨2, ![2048, 30]⟩
abbrev S2048x1 : Shape := ⟨2, ![2048, 1]⟩
abbrev S2048x32 : Shape := ⟨2, ![2048, 32]⟩
abbrev S2048x16 : Shape := ⟨2, ![2048, 16]⟩
abbrev S2048x8 : Shape := ⟨2, ![2048, 8]⟩

abbrev nBuf : Space → Nat
  | .hbm => 10
  | .vmem => 12
  | .smem => 0
  | _ => 0

abbrev bufTy : (tb : Table) → Fin (tcTables nBuf tb) → BufTy
  | .hbm, ⟨0, _⟩ => ⟨S262144x30, .f32⟩
  | .hbm, ⟨1, _⟩ => ⟨S30x32, .f32⟩
  | .hbm, ⟨2, _⟩ => ⟨S1x32, .f32⟩
  | .hbm, ⟨3, _⟩ => ⟨S32x16, .f32⟩
  | .hbm, ⟨4, _⟩ => ⟨S1x16, .f32⟩
  | .hbm, ⟨5, _⟩ => ⟨S16x8, .f32⟩
  | .hbm, ⟨6, _⟩ => ⟨S1x8, .f32⟩
  | .hbm, ⟨7, _⟩ => ⟨S8x1, .f32⟩
  | .hbm, ⟨8, _⟩ => ⟨S1x1, .f32⟩
  | .hbm, ⟨9, _⟩ => ⟨S262144x1, .f32⟩
  | .local _ .vmem, ⟨0, _⟩ => ⟨S2048x30, .f32⟩
  | .local _ .vmem, ⟨1, _⟩ => ⟨S2048x30, .f32⟩
  | .local _ .vmem, ⟨2, _⟩ => ⟨S30x32, .f32⟩
  | .local _ .vmem, ⟨3, _⟩ => ⟨S1x32, .f32⟩
  | .local _ .vmem, ⟨4, _⟩ => ⟨S32x16, .f32⟩
  | .local _ .vmem, ⟨5, _⟩ => ⟨S1x16, .f32⟩
  | .local _ .vmem, ⟨6, _⟩ => ⟨S16x8, .f32⟩
  | .local _ .vmem, ⟨7, _⟩ => ⟨S1x8, .f32⟩
  | .local _ .vmem, ⟨8, _⟩ => ⟨S8x1, .f32⟩
  | .local _ .vmem, ⟨9, _⟩ => ⟨S1x1, .f32⟩
  | .local _ .vmem, ⟨10, _⟩ => ⟨S2048x1, .f32⟩
  | .local _ .vmem, ⟨11, _⟩ => ⟨S2048x1, .f32⟩
  | _, _ => ⟨S262144x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S30x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  inb_S2048x30_S2048x30_0_0 : ∀ a, (![0, 0] : Fin 2 → Nat) a + S2048x30.size a ≤ S2048x30.size a
  h_S2048x30 : 0 < S2048x30.numel
  inb_S30x32_S30x32_0_0 : ∀ a, (![0, 0] : Fin 2 → Nat) a + S30x32.size a ≤ S30x32.size a
  h_S30x32 : 0 < S30x32.numel
  inb_S1x32_S1x32_0_0 : ∀ a, (![0, 0] : Fin 2 → Nat) a + S1x32.size a ≤ S1x32.size a
  h_S1x32 : 0 < S1x32.numel
  broadcasts_S1x32_S2048x32 : S1x32.Broadcasts S2048x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  broadcasts_S1x16_S2048x16 : S1x16.Broadcasts S2048x16
  inb_S16x8_S16x8_0_0 : ∀ a, (![0, 0] : Fin 2 → Nat) a + S16x8.size a ≤ S16x8.size a
  h_S16x8 : 0 < S16x8.numel
  inb_S1x8_S1x8_0_0 : ∀ a, (![0, 0] : Fin 2 → Nat) a + S1x8.size a ≤ S1x8.size a
  h_S1x8 : 0 < S1x8.numel
  broadcasts_S1x8_S2048x8 : S1x8.Broadcasts S2048x8
  inb_S8x1_S8x1_0_0 : ∀ a, (![0, 0] : Fin 2 → Nat) a + S8x1.size a ≤ S8x1.size a
  h_S8x1 : 0 < S8x1.numel
  inb_S1x1_S1x1_0_0 : ∀ a, (![0, 0] : Fin 2 → Nat) a + S1x1.size a ≤ S1x1.size a
  h_S1x1 : 0 < S1x1.numel
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  dot_S2048x30_S30x32_S2048x32_1_0_0_1_n_n_wf : DotDims.WF S2048x30 S30x32 S2048x32 [1] [0] [0] [1] [] []
  dot_S2048x32_S32x16_S2048x16_1_0_0_1_n_n_wf : DotDims.WF S2048x32 S32x16 S2048x16 [1] [0] [0] [1] [] []
  dot_S2048x16_S16x8_S2048x8_1_0_0_1_n_n_wf : DotDims.WF S2048x16 S16x8 S2048x8 [1] [0] [0] [1] [] []
  dot_S2048x8_S8x1_S2048x1_1_0_0_1_n_n_wf : DotDims.WF S2048x8 S8x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x30.size a ≤ S262144x30.size a
  hwx0_0 : ∀ i : grid0.Coords, EltTy.bits .f32 = 32 ∨ (Rect.block (s := S262144x30) S2048x30.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S30x32.size a ≤ S30x32.size a
  hwx0_1 : ∀ i : grid0.Coords, EltTy.bits .f32 = 32 ∨ (Rect.block (s := S30x32) S30x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x16.size a ≤ S32x16.size a
  hwx0_3 : ∀ i : grid0.Coords, EltTy.bits .f32 = 32 ∨ (Rect.block (s := S32x16) S32x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x8.size a ≤ S16x8.size a
  hwx0_5 : ∀ i : grid0.Coords, EltTy.bits .f32 = 32 ∨ (Rect.block (s := S16x8) S16x8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x8.size a ≤ S1x8.size a
  hwx0_6 : ∀ i : grid0.Coords, EltTy.bits .f32 = 32 ∨ (Rect.block (s := S1x8) S1x8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x1.size a ≤ S8x1.size a
  hwx0_7 : ∀ i : grid0.Coords, EltTy.bits .f32 = 32 ∨ (Rect.block (s := S8x1) S8x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x1.size a ≤ S262144x1.size a
  hwx0_9 : ∀ i : grid0.Coords, EltTy.bits .f32 = 32 ∨ (Rect.block (s := S262144x1) S2048x1.size (cc0_transform_9 i) (hinb0_9 i)).WholeWords (EltTy.packing .f32)

variable [Facts₀]

def dot_S2048x30_S30x32_S2048x32_1_0_0_1_n_n : DotDims S2048x30 S30x32 S2048x32 where
  lhsContracting := [1]
  rhsContracting := [0]
  lhsNonContracting := [0]
  rhsNonContracting := [1]
  lhsBatch := []
  rhsBatch := []
  wf := dot_S2048x30_S30x32_S2048x32_1_0_0_1_n_n_wf
def dot_S2048x32_S32x16_S2048x16_1_0_0_1_n_n : DotDims S2048x32 S32x16 S2048x16 where
  lhsContracting := [1]
  rhsContracting := [0]
  lhsNonContracting := [0]
  rhsNonContracting := [1]
  lhsBatch := []
  rhsBatch := []
  wf := dot_S2048x32_S32x16_S2048x16_1_0_0_1_n_n_wf
def dot_S2048x16_S16x8_S2048x8_1_0_0_1_n_n : DotDims S2048x16 S16x8 S2048x8 where
  lhsContracting := [1]
  rhsContracting := [0]
  lhsNonContracting := [0]
  rhsNonContracting := [1]
  lhsBatch := []
  rhsBatch := []
  wf := dot_S2048x16_S16x8_S2048x8_1_0_0_1_n_n_wf
def dot_S2048x8_S8x1_S2048x1_1_0_0_1_n_n : DotDims S2048x8 S8x1 S2048x1 where
  lhsContracting := [1]
  rhsContracting := [0]
  lhsNonContracting := [0]
  rhsNonContracting := [1]
  lhsBatch := []
  rhsBatch := []
  wf := dot_S2048x8_S8x1_S2048x1_1_0_0_1_n_n_wf

abbrev win0_0 : Pipeline.Window sig grid0 :=
  Pipeline.Window.ofSpec (Memref.whole main_arg0) S2048x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S30x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S16x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S8x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S2048x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== Proof.LibDotRead.lean ====
/-
  A matrix product accumulated into zero, read at one entry, at the ideal values.

  For the two dimension-number forms a two-operand product takes on rank-2 operands — rows × contraction times
  contraction × columns (`DotDims.plain`), and the same with the right operand stored transposed, columns × contraction
  (`DotDims.transposedRhs`) — entry `(r, c)` of the product is the plain sum, over the one contracted axis, of the
  left operand at `(r, k)` times the right operand at `(k, c)` (at `(c, k)` when stored transposed). The contraction
  index type of the dimension numbers is re-indexed to `Fin K` (`ValueIdx.contrEquiv1`), and the operands' indices at an
  output index and a contraction position are computed axis by axis: a free axis reads the output index, the
  contracted axis the contraction position. Extents are variables: nothing here depends on their values.
  No law of real arithmetic beyond `0 + x = x` is used, so the statements hold at the infinities too.
-/
import Idealize.ShloMosaic.Lib.ValueIdx
import Idealize.ShloMosaic.PureOps.Ideal.Laws

noncomputable section

namespace Idealize.ShloMosaic.DotRead

open Idealize.ShloMosaic Idealize.ShloMosaic.ValueIdx

/-! ## Rows × contraction times contraction × columns -/

/-- The left operand's row is the output's row. -/
theorem plain_lhs_row (M K N : Nat) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs_col (M K N : Nat) (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (M K N : Nat) (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem plain_rhs_col (M K N : Nat) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry `(r, c)` of `A · B` accumulated into zero is `∑ k, A (r, k) * B (k, c)`. -/
theorem matmul_plain_zero_apply {φ₁ φ₂ : FTy} (M K N : Nat) (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact plain_lhs_row M K N _ _
      | ⟨1, _⟩ => exact (plain_lhs_col M K N _ _).trans hk)
  have er : (DotDims.plain M K N).rhsIdx (ix2 r c) ((contrEquiv1 (DotDims.plain M K N) K rfl rfl).symm k) = ix2 k c :=
    funext fun a => Fin.ext (by
      match a with
      | ⟨0, _⟩ => exact (plain_rhs_row M K N _ _).trans hk
      | ⟨1, _⟩ => exact plain_rhs_col M K N _ _)
  rw [el, er]

/-! ## The right operand stored transposed: rows × contraction times columns × contraction -/

/-- The left operand's row is the output's row. -/
theorem transposedRhs_lhs_row (M K N : Nat) (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem transposedRhs_lhs_col (M K N : Nat) (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the output's column. -/
theorem transposedRhs_rhs_row (M K N : Nat) (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem transposedRhs_rhs_col (M K N : Nat) (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- Entry `(r, c)` of `A · Bᵀ` accumulated into zero is `∑ k, A (r, k) * B (c, k)`. -/
theorem matmul_transposedRhs_zero_apply {φ₁ φ₂ : FTy} (M K N : Nat) (prec : Option ContractPrecision)
    (lhs : FVec Ideal ⟨2, ![M, K]⟩ φ₁) (rhs : FVec Ideal ⟨2, ![N, K]⟩ φ₂) (r : Fin M) (c : Fin N) :
    FloatOps.matmul (DotDims.transposedRhs M K N) prec lhs rhs (constant (F := Ideal) ⟨2, ![M, N]⟩ .f32 0x00000000#32) (ix2 r c)
      = ∑ k : Fin K, lhs (ix2 r k) * rhs (ix2 c k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c) ((contrEquiv1 (DotDims.transposedRhs M K N) K rfl rfl).symm k) = ix2 r k :=
    funext fun a => Fin.ext (by
      match a with
      | ⟨0, _⟩ => exact transposedRhs_lhs_row M K N _ _
      | ⟨1, _⟩ => exact (transposedRhs_lhs_col M K N _ _).trans hk)
  have er : (DotDims.transposedRhs M K N).rhsIdx (ix2 r c) ((contrEquiv1 (DotDims.transposedRhs M K N) K rfl rfl).symm k) = ix2 c k :=
    funext fun a => Fin.ext (by
      match a with
      | ⟨0, _⟩ => exact transposedRhs_rhs_row M K N _ _
      | ⟨1, _⟩ => exact (transposedRhs_rhs_col M K N _ _).trans hk)
  rw [el, er]

end Idealize.ShloMosaic.DotRead

end
-- ==== Proof.RowSpec.lean ====
/-
  The network on one sample, over the extended reals.

  A layer takes a sample's activations `h : Fin K → EReal`, weights `W` and a bias `b`, and returns, for each of its
  `N` units `j`, the maximum of `(∑ k, h k * W k j) + b j` and a floor `z` (the rectifier's zero, kept as the word
  the programs print). The same layer with the weights stored unit-major, `Wt j k = W k j`, and each product written
  weight first, is the same function: multiplication of extended reals commutes, term by term under the same finite
  sum — no distributivity, no cancellation, hence no finiteness. The network is three such layers, then one affine
  unit and the logistic function; `G` is the network applied to every row of the sample matrix.
-/
import Idealize.ShloMosaic.PureOps.Ideal
import Idealize.ShloMosaic.Lib.ValueIdx

noncomputable section

namespace Cert.RowNet

open Idealize.ShloMosaic Idealize.ShloMosaic.ValueIdx

/-- `(∑ k, h k * W k j) + b j`: unit `j` of an affine layer, activations first in each product. -/
def affine {K N : Nat} (W : Fin K → Fin N → EReal) (b : Fin N → EReal) (h : Fin K → EReal) (j : Fin N) : EReal :=
  (∑ k : Fin K, h k * W k j) + b j

/-- The same with the weights stored unit-major and written first in each product. -/
def affineT {K N : Nat} (Wt : Fin N → Fin K → EReal) (b : Fin N → EReal) (h : Fin K → EReal) (j : Fin N) : EReal :=
  (∑ k : Fin K, Wt j k * h k) + b j

/-- Commutativity of the product, under the sum. -/
theorem affineT_eq {K N : Nat} (Wt : Fin N → Fin K → EReal) (b : Fin N → EReal) (h : Fin K → EReal) :
    affineT Wt b h = affine (fun k j => Wt j k) b h := by
  funext j
  unfold affineT affine
  exact congrArg (· + b j) (Finset.sum_congr rfl fun k _ => mul_comm _ _)

/-- An affine layer followed by the rectifier against the floor `z`. -/
def dense {K N : Nat} (W : Fin K → Fin N → EReal) (b : Fin N → EReal) (z : EReal) (h : Fin K → EReal) (j : Fin N) : EReal :=
  max (affine W b h j) z

/-- The same, unit-major. -/
def denseT {K N : Nat} (Wt : Fin N → Fin K → EReal) (b : Fin N → EReal) (z : EReal) (h : Fin K → EReal) (j : Fin N) : EReal :=
  max (affineT Wt b h j) z

theorem denseT_eq {K N : Nat} (Wt : Fin N → Fin K → EReal) (b : Fin N → EReal) (z : EReal) (h : Fin K → EReal) :
    denseT Wt b z h = dense (fun k j => Wt j k) b z h := by
  funext j
  unfold denseT dense
  rw [affineT_eq]

/-- The network on one sample `xr`: 30 → 32 → 16 → 8 rectified layers, one affine unit, the logistic function. -/
def net (w1 : Fin 30 → Fin 32 → EReal) (b1 : Fin 32 → EReal) (w2 : Fin 32 → Fin 16 → EReal) (b2 : Fin 16 → EReal)
    (w3 : Fin 16 → Fin 8 → EReal) (b3 : Fin 8 → EReal) (w4 : Fin 8 → Fin 1 → EReal) (b4 : Fin 1 → EReal) (z : EReal)
    (xr : Fin 30 → EReal) : EReal :=
  Ideal.logistic (affine w4 b4 (dense w3 b3 z (dense w2 b2 z (dense w1 b1 z xr))) 0)

/-- The network with every weight matrix stored unit-major. -/
def netT (w1t : Fin 32 → Fin 30 → EReal) (b1 : Fin 32 → EReal) (w2t : Fin 16 → Fin 32 → EReal) (b2 : Fin 16 → EReal)
    (w3t : Fin 8 → Fin 16 → EReal) (b3 : Fin 8 → EReal) (w4t : Fin 1 → Fin 8 → EReal) (b4 : Fin 1 → EReal) (z : EReal)
    (xr : Fin 30 → EReal) : EReal :=
  Ideal.logistic (affineT w4t b4 (denseT w3t b3 z (denseT w2t b2 z (denseT w1t b1 z xr))) 0)

/-- Stored either way the network is one function of the sample. -/
theorem netT_eq (w1t : Fin 32 → Fin 30 → EReal) (b1 : Fin 32 → EReal) (w2t : Fin 16 → Fin 32 → EReal) (b2 : Fin 16 → EReal)
    (w3t : Fin 8 → Fin 16 → EReal) (b3 : Fin 8 → EReal) (w4t : Fin 1 → Fin 8 → EReal) (b4 : Fin 1 → EReal) (z : EReal)
    (xr : Fin 30 → EReal) :
    netT w1t b1 w2t b2 w3t b3 w4t b4 z xr
      = net (fun k j => w1t j k) b1 (fun k j => w2t j k) b2 (fun k j => w3t j k) b3 (fun k j => w4t j k) b4 z xr := by
  unfold netT net
  rw [affineT_eq, denseT_eq, denseT_eq, denseT_eq]

/-- The network depends on its weights, biases and sample only through their values. -/
theorem net_congr {w1 w1' : Fin 30 → Fin 32 → EReal} {b1 b1' : Fin 32 → EReal} {w2 w2' : Fin 32 → Fin 16 → EReal}
    {b2 b2' : Fin 16 → EReal} {w3 w3' : Fin 16 → Fin 8 → EReal} {b3 b3' : Fin 8 → EReal} {w4 w4' : Fin 8 → Fin 1 → EReal}
    {b4 b4' : Fin 1 → EReal} {xr xr' : Fin 30 → EReal} (z : EReal) (h1 : w1 = w1') (g1 : b1 = b1') (h2 : w2 = w2') (g2 : b2 = b2')
    (h3 : w3 = w3') (g3 : b3 = b3') (h4 : w4 = w4') (g4 : b4 = b4') (hx : xr = xr') :
    net w1 b1 w2 b2 w3 b3 w4 b4 z xr = net w1' b1' w2' b2' w3' b3' w4' b4' z xr' := by
  subst h1 g1 h2 g2 h3 g3 h4 g4 hx
  rfl

/-- The rectifier's floor: the word both programs splat. -/
abbrev floor0 : EReal := Ideal.ofBits .f32 0x00000000#32

/-- THE RESULT ARRAY as one function of the nine argument arrays: entry `(r, ·)` is the network on row `r` of `x`. -/
def G (x : (⟨2, ![262144, 30]⟩ : Shape).Idx → EReal) (w1 : (⟨2, ![30, 32]⟩ : Shape).Idx → EReal)
    (b1 : (⟨2, ![1, 32]⟩ : Shape).Idx → EReal) (w2 : (⟨2, ![32, 16]⟩ : Shape).Idx → EReal)
    (b2 : (⟨2, ![1, 16]⟩ : Shape).Idx → EReal) (w3 : (⟨2, ![16, 8]⟩ : Shape).Idx → EReal)
    (b3 : (⟨2, ![1, 8]⟩ : Shape).Idx → EReal) (w4 : (⟨2, ![8, 1]⟩ : Shape).Idx → EReal)
    (b4 : (⟨2, ![1, 1]⟩ : Shape).Idx → EReal) : (⟨2, ![262144, 1]⟩ : Shape).Idx → EReal := fun i =>
  net (fun k j => w1 (ix2 k j)) (fun j => b1 (ix2 (0 : Fin 1) j)) (fun k j => w2 (ix2 k j)) (fun j => b2 (ix2 (0 : Fin 1) j))
    (fun k j => w3 (ix2 k j)) (fun j => b3 (ix2 (0 : Fin 1) j)) (fun k j => w4 (ix2 k j)) (fun j => b4 (ix2 (0 : Fin 1) j))
    floor0 (fun f => x (ix2 (i 0) f))

end Cert.RowNet

end
-- ==== Proof.RefBlock.lean ====
/-
  What the sample-major body stores, entry by entry.

  The body holds a block of 2048 samples as a 2048 × 30 matrix `X` and pushes it through the layers sample-major:
  `max (H · W + b, 0)` three times, then `H · W + b` and the logistic function. Every product is accumulated into
  zero, every bias is one row laid along the 2048 rows. Entry `(p, j)` of a layer's output therefore depends on row `p`
  of its input alone, and is the layer of the sample specification applied to that row; so the stored column, at
  `(p, ·)`, is the network on row `p` of `X`.
-/
import proofs.«164274_g2000605162513149_pallasbulk_511_5_alg».proof.Proof.Gen.ReferenceIdeal.Skeleton
import proofs.«164274_g2000605162513149_pallasbulk_511_5_alg».proof.Proof.LibDotRead
import proofs.«164274_g2000605162513149_pallasbulk_511_5_alg».proof.Proof.RowSpec
import Idealize.ShloMosaic.Lib.ValueLayout

noncomputable section

namespace Cert.ReferenceIdeal.Block

open Cert.ReferenceIdeal Cert.ReferenceIdeal.Gen Idealize.ShloMosaic Idealize.ShloMosaic.ValueIdx Cert.RowNet

/-- One rectified layer on a block of samples, as the body computes it. -/
def lay {M K N : Nat} (d : DotDims ⟨2, ![M, K]⟩ ⟨2, ![K, N]⟩ ⟨2, ![M, N]⟩) (H : FVec Ideal ⟨2, ![M, K]⟩ .f32)
    (W : FVec Ideal ⟨2, ![K, N]⟩ .f32) (B : FVec Ideal ⟨2, ![1, N]⟩ .f32)
    (hb : (⟨2, ![1, N]⟩ : Shape).Broadcasts ⟨2, ![M, N]⟩) : FVec Ideal ⟨2, ![M, N]⟩ .f32 :=
  maximumf (addf (matmul d none H W (constant ⟨2, ![M, N]⟩ .f32 0x00000000#32)) (broadcastTo ⟨2, ![M, N]⟩ B hb))
    (broadcast ⟨2, ![M, N]⟩ (Scalar.ofBits .f32 0x00000000#32))

/-- The last, affine layer on a block of samples. -/
def aff {M K N : Nat} (d : DotDims ⟨2, ![M, K]⟩ ⟨2, ![K, N]⟩ ⟨2, ![M, N]⟩) (H : FVec Ideal ⟨2, ![M, K]⟩ .f32)
    (W : FVec Ideal ⟨2, ![K, N]⟩ .f32) (B : FVec Ideal ⟨2, ![1, N]⟩ .f32)
    (hb : (⟨2, ![1, N]⟩ : Shape).Broadcasts ⟨2, ![M, N]⟩) : FVec Ideal ⟨2, ![M, N]⟩ .f32 :=
  addf (matmul d none H W (constant ⟨2, ![M, N]⟩ .f32 0x00000000#32)) (broadcastTo ⟨2, ![M, N]⟩ B hb)

/-- Entry `(p, j)` of the affine layer: unit `j` on sample `p`'s activations. -/
theorem aff_apply {M K N : Nat} (d : DotDims ⟨2, ![M, K]⟩ ⟨2, ![K, N]⟩ ⟨2, ![M, N]⟩) (hd : d = DotDims.plain M K N)
    (H : FVec Ideal ⟨2, ![M, K]⟩ .f32) (W : FVec Ideal ⟨2, ![K, N]⟩ .f32) (B : FVec Ideal ⟨2, ![1, N]⟩ .f32)
    (hb : (⟨2, ![1, N]⟩ : Shape).Broadcasts ⟨2, ![M, N]⟩) (p : Fin M) (j : Fin N) :
    aff d H W B hb (ix2 p j)
      = affine (fun k j => W (ix2 k j)) (fun j => B (ix2 (0 : Fin 1) j)) (fun k => H (ix2 p k)) j := by
  subst hd
  show FloatOps.matmul (DotDims.plain M K N) none H W (constant (F := Ideal) ⟨2, ![M, N]⟩ .f32 0x00000000#32) (ix2 p j)
      + broadcastTo ⟨2, ![M, N]⟩ B hb (ix2 p j) = _
  rw [DotRead.matmul_plain_zero_apply, broadcastTo_1b_ab_apply]
  rfl

/-- Entry `(p, j)` of a rectified layer: unit `j` on sample `p`'s activations. -/
theorem lay_apply {M K N : Nat} (d : DotDims ⟨2, ![M, K]⟩ ⟨2, ![K, N]⟩ ⟨2, ![M, N]⟩) (hd : d = DotDims.plain M K N)
    (H : FVec Ideal ⟨2, ![M, K]⟩ .f32) (W : FVec Ideal ⟨2, ![K, N]⟩ .f32) (B : FVec Ideal ⟨2, ![1, N]⟩ .f32)
    (hb : (⟨2, ![1, N]⟩ : Shape).Broadcasts ⟨2, ![M, N]⟩) (p : Fin M) (j : Fin N) :
    lay d H W B hb (ix2 p j)
      = dense (fun k j => W (ix2 k j)) (fun j => B (ix2 (0 : Fin 1) j)) floor0 (fun k => H (ix2 p k)) j :=
  congrArg (max · floor0) (aff_apply d hd H W B hb p j)

/-- The stored value is the nest of the four layers under the logistic function. -/
theorem pay_eq (X : Vec Ideal S2048x30 .f32) (W1 : Vec Ideal S30x32 .f32) (B1 : Vec Ideal S1x32 .f32)
    (W2 : Vec Ideal S32x16 .f32) (B2 : Vec Ideal S1x16 .f32) (W3 : Vec Ideal S16x8 .f32) (B3 : Vec Ideal S1x8 .f32)
    (W4 : Vec Ideal S8x1 .f32) (B4 : Vec Ideal S1x1 .f32) :
    k0_pay1 (F := Ideal) X W1 B1 W2 B2 W3 B3 W4 B4
      = logistic (aff dot_S2048x8_S8x1_S2048x1_1_0_0_1_n_n
          (lay dot_S2048x16_S16x8_S2048x8_1_0_0_1_n_n
            (lay dot_S2048x32_S32x16_S2048x16_1_0_0_1_n_n
              (lay dot_S2048x30_S30x32_S2048x32_1_0_0_1_n_n X W1 B1 broadcasts_S1x32_S2048x32)
              W2 B2 broadcasts_S1x16_S2048x16)
            W3 B3 broadcasts_S1x8_S2048x8)
          W4 B4 broadcasts_S1x1_S2048x1) := rfl

/-- ENTRY `(p, ·)` OF THE STORED COLUMN is the network on row `p` of the block of samples. -/
theorem pay_apply (X : Vec Ideal S2048x30 .f32) (W1 : Vec Ideal S30x32 .f32) (B1 : Vec Ideal S1x32 .f32)
    (W2 : Vec Ideal S32x16 .f32) (B2 : Vec Ideal S1x16 .f32) (W3 : Vec Ideal S16x8 .f32) (B3 : Vec Ideal S1x8 .f32)
    (W4 : Vec Ideal S8x1 .f32) (B4 : Vec Ideal S1x1 .f32) (p : Fin 2048) (u : Fin 1) :
    k0_pay1 (F := Ideal) X W1 B1 W2 B2 W3 B3 W4 B4 (ix2 p u)
      = net (fun k j => W1 (ix2 k j)) (fun j => B1 (ix2 (0 : Fin 1) j)) (fun k j => W2 (ix2 k j)) (fun j => B2 (ix2 (0 : Fin 1) j))
          (fun k j => W3 (ix2 k j)) (fun j => B3 (ix2 (0 : Fin 1) j)) (fun k j => W4 (ix2 k j)) (fun j => B4 (ix2 (0 : Fin 1) j))
          floor0 (fun f => X (ix2 p f)) := by
  have hu : u = 0 := Subsingleton.elim _ _
  subst hu
  rw [pay_eq]
  show Ideal.logistic (aff _ _ W4 B4 _ (ix2 p 0)) = _
  unfold net
  refine congrArg Ideal.logistic ?_
  refine (aff_apply _ rfl _ W4 B4 _ p 0).trans ?_
  refine congrArg (fun h => affine (fun k j => W4 (ix2 k j)) (fun j => B4 (ix2 (0 : Fin 1) j)) h 0) ?_
  refine (funext fun k => lay_apply _ rfl _ W3 B3 _ p k).trans ?_
  refine congrArg (dense (fun k j => W3 (ix2 k j)) (fun j => B3 (ix2 (0 : Fin 1) j)) floor0) ?_
  refine (funext fun k => lay_apply _ rfl _ W2 B2 _ p k).trans ?_
  refine congrArg (dense (fun k j => W2 (ix2 k j)) (fun j => B2 (ix2 (0 : Fin 1) j)) floor0) ?_
  exact funext fun k => lay_apply _ rfl X W1 B1 _ p k

end Cert.ReferenceIdeal.Block

end
-- ==== Proof.RefArray.lean ====
/-
  From the blocks to the whole array, for the sample-major program.

  The grid has 128 points; point `t` stages rows `2048 t … 2048 t + 2047` of the sample matrix, every weight and bias
  array whole, and writes back rows `2048 t … 2048 t + 2047` of the result column. What it writes back is the stored
  column of the body on those blocks, so entry `p` of it is the network on row `2048 t + p` of the sample matrix with
  the launch weights: block `t` of the one function `G` of the nine argument arrays. Every row `r` of the result lies
  in the block of point `r / 2048`, so the blocks cover the array and it ends holding `G`.
-/
import proofs.«164274_g2000605162513149_pallasbulk_511_5_alg».proof.Proof.Gen.ReferenceIdeal.Value
import proofs.«164274_g2000605162513149_pallasbulk_511_5_alg».proof.Proof.RefBlock
import Idealize.ShloMosaic.Lib.Pipeline.Value

noncomputable section

namespace Cert.ReferenceIdeal.Whole

open Cert.ReferenceIdeal Cert.ReferenceIdeal.Gen Idealize.ShloMosaic Idealize.ShloMosaic.TcCoe Idealize.SL.Sem
open Idealize.ShloMosaic.ValueIdx Cert.RowNet
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the sample window and the result window sit at block `(t, 0)`, every weight
    and bias window at block `(0, 0)`. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0) :=
  (by decide +kernel : ∀ t : Fin grid0.N, _)

/-- The result array: the network, with the launch weights, on every row of the launch sample matrix. -/
abbrev result (c : Dev nD) : Buf (Elt Ideal) ((c : Thread nD τ).loc main_v0) :=
  G (m ((c : Thread nD τ).loc main_arg0) : S262144x30.Idx → EReal)
    (m ((c : Thread nD τ).loc main_arg1) : S30x32.Idx → EReal)
    (m ((c : Thread nD τ).loc main_arg2) : S1x32.Idx → EReal)
    (m ((c : Thread nD τ).loc main_arg3) : S32x16.Idx → EReal)
    (m ((c : Thread nD τ).loc main_arg4) : S1x16.Idx → EReal)
    (m ((c : Thread nD τ).loc main_arg5) : S16x8.Idx → EReal)
    (m ((c : Thread nD τ).loc main_arg6) : S1x8.Idx → EReal)
    (m ((c : Thread nD τ).loc main_arg7) : S8x1.Idx → EReal)
    (m ((c : Thread nD τ).loc main_arg8) : S1x1.Idx → EReal)

/-- Entry `(p, f)` of the sample window's block at point `t` is entry `(2048 t + p, f)` of the sample matrix. -/
theorem iblk0_apply (c : Dev nD) (t : Fin cfg0.N) (p : Fin 2048) (f : Fin 30) (r : Fin 262144) (hr : r.val = t.val * 2048 + p.val) :
    (iblk m c 0 t : Vec Ideal S2048x30 .f32) (ix2 p f) = (m ((c : Thread nD τ).loc main_arg0) : S262144x30.Idx → EReal) (ix2 r f) := by
  have h0 : win0_0.index t (0 : Fin 2) = t.val := (idx_facts t).1.1
  have h1 : win0_0.index t (1 : Fin 2) = 0 := (idx_facts t).1.2
  show V m c main_arg0 (((cfg0.win 0).blk t).view.emb (ix2 p f)) = _
  refine congrArg (m ((c : Thread nD τ).loc main_arg0) : S262144x30.Idx → EReal) ?_
  funext a; apply Fin.ext
  match a with
  | ⟨0, _⟩ => show win0_0.index t (0 : Fin 2) * 2048 + 1 * p.val = r.val; rw [h0, hr]; omega
  | ⟨1, _⟩ => show win0_0.index t (1 : Fin 2) * 30 + 1 * f.val = f.val; rw [h1]; omega

/-- Window 1's block is its whole array at every point: entry `(k, j)` of the block is entry `(k, j)` of argument 1. -/
theorem iblk1_apply (c : Dev nD) (t : Fin cfg0.N) (k : Fin 30) (j : Fin 32) :
    (iblk m c 1 t : Vec Ideal S30x32 .f32) (ix2 k j) = (m ((c : Thread nD τ).loc main_arg1) : S30x32.Idx → EReal) (ix2 k j) := by
  have h0 : win0_1.index t (0 : Fin 2) = 0 := (idx_facts t).2.1.1
  have h1 : win0_1.index t (1 : Fin 2) = 0 := (idx_facts t).2.1.2
  show V m c main_arg1 (((cfg0.win 1).blk t).view.emb (ix2 k j)) = _
  refine congrArg (m ((c : Thread nD τ).loc main_arg1) : S30x32.Idx → EReal) ?_
  funext a; apply Fin.ext
  match a with
  | ⟨0, _⟩ => show win0_1.index t (0 : Fin 2) * 30 + 1 * k.val = k.val; rw [h0]; omega
  | ⟨1, _⟩ => show win0_1.index t (1 : Fin 2) * 32 + 1 * j.val = j.val; rw [h1]; omega

/-- Window 2's block is its whole array at every point: entry `(k, j)` of the block is entry `(k, j)` of argument 2. -/
theorem iblk2_apply (c : Dev nD) (t : Fin cfg0.N) (k : Fin 1) (j : Fin 32) :
    (iblk m c 2 t : Vec Ideal S1x32 .f32) (ix2 k j) = (m ((c : Thread nD τ).loc main_arg2) : S1x32.Idx → EReal) (ix2 k j) := by
  have h0 : win0_2.index t (0 : Fin 2) = 0 := (idx_facts t).2.2.1.1
  have h1 : win0_2.index t (1 : Fin 2) = 0 := (idx_facts t).2.2.1.2
  show V m c main_arg2 (((cfg0.win 2).blk t).view.emb (ix2 k j)) = _
  refine congrArg (m ((c : Thread nD τ).loc main_arg2) : S1x32.Idx → EReal) ?_
  funext a; apply Fin.ext
  match a with
  | ⟨0, _⟩ => show win0_2.index t (0 : Fin 2) * 1 + 1 * k.val = k.val; rw [h0]; omega
  | ⟨1, _⟩ => show win0_2.index t (1 : Fin 2) * 32 + 1 * j.val = j.val; rw [h1]; omega

/-- Window 3's block is its whole array at every point: entry `(k, j)` of the block is entry `(k, j)` of argument 3. -/
theorem iblk3_apply (c : Dev nD) (t : Fin cfg0.N) (k : Fin 32) (j : Fin 16) :
    (iblk m c 3 t : Vec Ideal S32x16 .f32) (ix2 k j) = (m ((c : Thread nD τ).loc main_arg3) : S32x16.Idx → EReal) (ix2 k j) := by
  have h0 : win0_3.index t (0 : Fin 2) = 0 := (idx_facts t).2.2.2.1.1
  have h1 : win0_3.index t (1 : Fin 2) = 0 := (idx_facts t).2.2.2.1.2
  show V m c main_arg3 (((cfg0.win 3).blk t).view.emb (ix2 k j)) = _
  refine congrArg (m ((c : Thread nD τ).loc main_arg3) : S32x16.Idx → EReal) ?_
  funext a; apply Fin.ext
  match a with
  | ⟨0, _⟩ => show win0_3.index t (0 : Fin 2) * 32 + 1 * k.val = k.val; rw [h0]; omega
  | ⟨1, _⟩ => show win0_3.index t (1 : Fin 2) * 16 + 1 * j.val = j.val; rw [h1]; omega

/-- Window 4's block is its whole array at every point: entry `(k, j)` of the block is entry `(k, j)` of argument 4. -/
theorem iblk4_apply (c : Dev nD) (t : Fin cfg0.N) (k : Fin 1) (j : Fin 16) :
    (iblk m c 4 t : Vec Ideal S1x16 .f32) (ix2 k j) = (m ((c : Thread nD τ).loc main_arg4) : S1x16.Idx → EReal) (ix2 k j) := by
  have h0 : win0_4.index t (0 : Fin 2) = 0 := (idx_facts t).2.2.2.2.1.1
  have h1 : win0_4.index t (1 : Fin 2) = 0 := (idx_facts t).2.2.2.2.1.2
  show V m c main_arg4 (((cfg0.win 4).blk t).view.emb (ix2 k j)) = _
  refine congrArg (m ((c : Thread nD τ).loc main_arg4) : S1x16.Idx → EReal) ?_
  funext a; apply Fin.ext
  match a with
  | ⟨0, _⟩ => show win0_4.index t (0 : Fin 2) * 1 + 1 * k.val = k.val; rw [h0]; omega
  | ⟨1, _⟩ => show win0_4.index t (1 : Fin 2) * 16 + 1 * j.val = j.val; rw [h1]; omega

/-- Window 5's block is its whole array at every point: entry `(k, j)` of the block is entry `(k, j)` of argument 5. -/
theorem iblk5_apply (c : Dev nD) (t : Fin cfg0.N) (k : Fin 16) (j : Fin 8) :
    (iblk m c 5 t : Vec Ideal S16x8 .f32) (ix2 k j) = (m ((c : Thread nD τ).loc main_arg5) : S16x8.Idx → EReal) (ix2 k j) := by
  have h0 : win0_5.index t (0 : Fin 2) = 0 := (idx_facts t).2.2.2.2.2.1.1
  have h1 : win0_5.index t (1 : Fin 2) = 0 := (idx_facts t).2.2.2.2.2.1.2
  show V m c main_arg5 (((cfg0.win 5).blk t).view.emb (ix2 k j)) = _
  refine congrArg (m ((c : Thread nD τ).loc main_arg5) : S16x8.Idx → EReal) ?_
  funext a; apply Fin.ext
  match a with
  | ⟨0, _⟩ => show win0_5.index t (0 : Fin 2) * 16 + 1 * k.val = k.val; rw [h0]; omega
  | ⟨1, _⟩ => show win0_5.index t (1 : Fin 2) * 8 + 1 * j.val = j.val; rw [h1]; omega

/-- Window 6's block is its whole array at every point: entry `(k, j)` of the block is entry `(k, j)` of argument 6. -/
theorem iblk6_apply (c : Dev nD) (t : Fin cfg0.N) (k : Fin 1) (j : Fin 8) :
    (iblk m c 6 t : Vec Ideal S1x8 .f32) (ix2 k j) = (m ((c : Thread nD τ).loc main_arg6) : S1x8.Idx → EReal) (ix2 k j) := by
  have h0 : win0_6.index t (0 : Fin 2) = 0 := (idx_facts t).2.2.2.2.2.2.1.1
  have h1 : win0_6.index t (1 : Fin 2) = 0 := (idx_facts t).2.2.2.2.2.2.1.2
  show V m c main_arg6 (((cfg0.win 6).blk t).view.emb (ix2 k j)) = _
  refine congrArg (m ((c : Thread nD τ).loc main_arg6) : S1x8.Idx → EReal) ?_
  funext a; apply Fin.ext
  match a with
  | ⟨0, _⟩ => show win0_6.index t (0 : Fin 2) * 1 + 1 * k.val = k.val; rw [h0]; omega
  | ⟨1, _⟩ => show win0_6.index t (1 : Fin 2) * 8 + 1 * j.val = j.val; rw [h1]; omega

/-- Window 7's block is its whole array at every point: entry `(k, j)` of the block is entry `(k, j)` of argument 7. -/
theorem iblk7_apply (c : Dev nD) (t : Fin cfg0.N) (k : Fin 8) (j : Fin 1) :
    (iblk m c 7 t : Vec Ideal S8x1 .f32) (ix2 k j) = (m ((c : Thread nD τ).loc main_arg7) : S8x1.Idx → EReal) (ix2 k j) := by
  have h0 : win0_7.index t (0 : Fin 2) = 0 := (idx_facts t).2.2.2.2.2.2.2.1.1
  have h1 : win0_7.index t (1 : Fin 2) = 0 := (idx_facts t).2.2.2.2.2.2.2.1.2
  show V m c main_arg7 (((cfg0.win 7).blk t).view.emb (ix2 k j)) = _
  refine congrArg (m ((c : Thread nD τ).loc main_arg7) : S8x1.Idx → EReal) ?_
  funext a; apply Fin.ext
  match a with
  | ⟨0, _⟩ => show win0_7.index t (0 : Fin 2) * 8 + 1 * k.val = k.val; rw [h0]; omega
  | ⟨1, _⟩ => show win0_7.index t (1 : Fin 2) * 1 + 1 * j.val = j.val; rw [h1]; omega

/-- Window 8's block is its whole array at every point: entry `(k, j)` of the block is entry `(k, j)` of argument 8. -/
theorem iblk8_apply (c : Dev nD) (t : Fin cfg0.N) (k : Fin 1) (j : Fin 1) :
    (iblk m c 8 t : Vec Ideal S1x1 .f32) (ix2 k j) = (m ((c : Thread nD τ).loc main_arg8) : S1x1.Idx → EReal) (ix2 k j) := by
  have h0 : win0_8.index t (0 : Fin 2) = 0 := (idx_facts t).2.2.2.2.2.2.2.2.1.1
  have h1 : win0_8.index t (1 : Fin 2) = 0 := (idx_facts t).2.2.2.2.2.2.2.2.1.2
  show V m c main_arg8 (((cfg0.win 8).blk t).view.emb (ix2 k j)) = _
  refine congrArg (m ((c : Thread nD τ).loc main_arg8) : S1x1.Idx → EReal) ?_
  funext a; apply Fin.ext
  match a with
  | ⟨0, _⟩ => show win0_8.index t (0 : Fin 2) * 1 + 1 * k.val = k.val; rw [h0]; omega
  | ⟨1, _⟩ => show win0_8.index t (1 : Fin 2) * 1 + 1 * j.val = j.val; rw [h1]; omega

/-- WHAT POINT `t` WRITES BACK is block `t` of `G` of the launch arrays. -/
theorem flushed_eq (c : Dev nD) (t : Fin cfg0.N) :
    (dats m 0 c).flushed 9 t = ((cfg0.win 9).blk t).view.read (Elt Ideal) (result m c) := by
  rw [Cert.ReferenceIdeal.Value.flushed9]
  unfold out0_9
  rw [View.canon_unit_zero hz]
  simp only [View.ld_unit_zero (S := S2048x30) hz, View.ld_unit_zero (S := S30x32) hz, View.ld_unit_zero (S := S1x32) hz, View.ld_unit_zero (S := S32x16) hz, View.ld_unit_zero (S := S1x16) hz, View.ld_unit_zero (S := S16x8) hz, View.ld_unit_zero (S := S1x8) hz, View.ld_unit_zero (S := S8x1) hz, View.ld_unit_zero (S := S1x1) hz]
  refine funext fun (y : S2048x1.Idx) => ?_
  obtain ⟨p, u, rfl⟩ : ∃ (p : Fin 2048) (u : Fin 1), y = ix2 p u := ⟨y 0, y 1, eq_ix2 y⟩
  show k0_pay1 (F := Ideal) (iblk m c 0 t) (iblk m c 1 t) (iblk m c 2 t) (iblk m c 3 t) (iblk m c 4 t) (iblk m c 5 t) (iblk m c 6 t) (iblk m c 7 t) (iblk m c 8 t) (ix2 p u)
    = result m c (((cfg0.win 9).blk t).view.emb (ix2 p u))
  refine (Block.pay_apply (iblk m c 0 t) (iblk m c 1 t) (iblk m c 2 t) (iblk m c 3 t) (iblk m c 4 t) (iblk m c 5 t) (iblk m c 6 t) (iblk m c 7 t) (iblk m c 8 t) p u).trans ?_
  have h9 : win0_9.index t (0 : Fin 2) = t.val := (idx_facts t).2.2.2.2.2.2.2.2.2.1
  have hr : ((((cfg0.win 9).blk t).view.emb (ix2 p u)) 0).val = t.val * 2048 + p.val := by
    show win0_9.index t (0 : Fin 2) * 2048 + 1 * p.val = _
    rw [h9]; omega
  exact net_congr floor0
    (funext fun k => funext fun j => iblk1_apply m c t k j) (funext fun j => iblk2_apply m c t 0 j)
    (funext fun k => funext fun j => iblk3_apply m c t k j) (funext fun j => iblk4_apply m c t 0 j)
    (funext fun k => funext fun j => iblk5_apply m c t k j) (funext fun j => iblk6_apply m c t 0 j)
    (funext fun k => funext fun j => iblk7_apply m c t k j) (funext fun j => iblk8_apply m c t 0 j)
    (funext fun f => iblk0_apply m c t p f _ hr)

/-- An index of the result lies in point `t`'s block iff each coordinate lies in the block's range on its axis. -/
theorem mem_blk (t : Fin cfg0.N) (i : S262144x1.Idx) :
    i ∈ ((cfg0.win 9).blk t).view.set ↔ ∀ a : Fin 2, win0_9.index t a * S2048x1.size a ≤ (i a).val ∧ (i a).val < win0_9.index t a * S2048x1.size a + S2048x1.size a := by
  show i ∈ ((View.whole main_v0).slice (win0_9.rect t)).set ↔ _
  rw [View.set_slice_whole, Rect.mem_set_unit]
  exact Iff.rfl

/-- Row `r` of the result lies in the block of point `r / 2048`. -/
theorem cover (i : S262144x1.Idx) : ∃ t : Fin cfg0.N, (cfg0.win 9).flush t = true ∧ i ∈ ((cfg0.win 9).blk t).view.set := by
  have hN : cfg0.N = 128 := N_0
  have hi0 : (i 0).val < 262144 := (i 0).isLt
  have hi1 : (i 1).val < 1 := (i 1).isLt
  obtain ⟨T, hT⟩ : ∃ T : Fin cfg0.N, T.val = (i 0).val / 2048 := ⟨⟨(i 0).val / 2048, by omega⟩, rfl⟩
  have h90 : win0_9.index T (0 : Fin 2) = T.val := (idx_facts T).2.2.2.2.2.2.2.2.2.1
  have h91 : win0_9.index T (1 : Fin 2) = 0 := (idx_facts T).2.2.2.2.2.2.2.2.2.2
  refine ⟨T, flush0_9 T, ?_⟩
  rw [mem_blk]
  intro a
  match a with
  | ⟨0, _⟩ => show win0_9.index T (0 : Fin 2) * 2048 ≤ (i 0).val ∧ (i 0).val < win0_9.index T (0 : Fin 2) * 2048 + 2048; rw [h90, hT]; omega
  | ⟨1, _⟩ => show win0_9.index T (1 : Fin 2) * 1 ≤ (i 1).val ∧ (i 1).val < win0_9.index T (1 : Fin 2) * 1 + 1; rw [h91]; omega

/-- So the result array ends holding `G` of the launch arrays. -/
theorem final (c : Dev nD) : (dats m 0 c).arrAt 9 cfg0.N = result m c :=
  (dats m 0 c).arrAt_eq_of_cover 9 (result m c) (fun t _ => flushed_eq m c t) cover

/-- The run, read: the result array at `G` of the launch arrays, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Cert.ReferenceIdeal.Value.run_blocks m ρ)

end Cert.ReferenceIdeal.Whole

end
-- ==== Proof.LibKeepdims.lean ====
/-
  Keepdims layouts read at an index given by coordinates.

  A sum taken with `keepdims=True` leaves a unit axis where the summed axis was, so a kernel that brings a matrix down
  to a 1×1 cell one axis at a time passes through the column shapes: a vector `[a]` is made a column `[a, 1]`, a
  column is read back as a vector, laid as a row `[1, a]`, or broadcast across `b` columns. Each lemma reads one of
  these at an index written with `ix1` / `ix2`. The reason is the same every time: the unit coordinate `u : Fin 1`
  is `0`, so the row-major position of `(i, u)` in `[a, 1]` is `i · 1 + 0 = i`, the position of `i` in `[a]`
  and of `(0, i)` in `[1, a]`.

  These complete the leading-unit-axis forms of Lib/ValueLayout.lean (`shapeCast_a_1a_apply`, `shapeCast_1a_a_apply`,
  `broadcastTo_1b_ab_apply`) on the trailing side.
-/
import Idealize.ShloMosaic.Lib.ValueLayout

namespace Idealize.ShloMosaic.KeepdimsLayout

open Idealize.ShloMosaic Idealize.ShloMosaic.ValueIdx

variable {α : Type}

/-- A vector `[a]` cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to a vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` cast to a row `[1, a]` reads, at `(u, i)`, the operand at `(i, 0)`: the transpose of a
    column costs nothing, both lay the `a` entries out in order. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- A row `[1, a]` cast to a column `[a, 1]` reads, at `(i, u)`, the operand at `(0, i)`. -/
theorem shapeCast_1a_a1_apply {a : ℕ} (x : (⟨2, ![1, a]⟩ : Shape).Idx → α) (h : (⟨2, ![1, a]⟩ : Shape).ShapeCasts ⟨2, ![a, 1]⟩)
    (i : Fin a) (u : Fin 1) : shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.mul_one, Nat.add_zero, Nat.zero_mul, Nat.zero_add])

/-- A column `[a, 1]` broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-entry vector `[1]` cast to a cell `[1, 1]` reads, anywhere, the operand's entry: the last step of a matrix
    summed down to one cell. -/
theorem shapeCast_1_11_apply (x : (⟨1, ![1]⟩ : Shape).Idx → α) (h : (⟨1, ![1]⟩ : Shape).ShapeCasts ⟨2, ![1, 1]⟩)
    (i u : Fin 1) : shapeCast ⟨2, ![1, 1]⟩ x h (ix2 i u) = x (ix1 (0 : Fin 1)) := by
  have hi : i = 0 := Subsingleton.elim _ _
  subst hi
  exact shapeCast_a_a1_apply x h 0 u

end Idealize.ShloMosaic.KeepdimsLayout
-- ==== Proof.KernelBlock.lean ====
/-
  What the unit-major body stores, entry by entry.

  The body holds a block of 16384 samples as a 16384 × 30 matrix `X` and works in transposed activation space: the
  first layer is `W₁ᵀ · Xᵀ`, computed as a product with the right operand stored transposed, and leaves a 32 × 16384
  matrix whose COLUMN `p` belongs to sample `p`; each later layer multiplies a unit-major weight matrix on the left,
  `max (Wᵀ · H + b, 0)`, the bias a column laid along the 16384 columns. Entry `(j, p)` of a layer's output depends
  on column `p` of its input alone and is the unit-major layer of the sample specification on that column. The last
  layer leaves one row; the logistic function is applied and the row is stored as a column, so the stored entry
  `(p, ·)` is the unit-major network on row `p` of `X`.
-/
import proofs.«164274_g2000605162513149_pallasbulk_511_5_alg».proof.Proof.Gen.KernelIdeal.Value
import proofs.«164274_g2000605162513149_pallasbulk_511_5_alg».proof.Proof.LibDotRead
import proofs.«164274_g2000605162513149_pallasbulk_511_5_alg».proof.Proof.LibKeepdims
import proofs.«164274_g2000605162513149_pallasbulk_511_5_alg».proof.Proof.RowSpec

noncomputable section

namespace Cert.KernelIdeal.Block

open Cert.KernelIdeal Cert.KernelIdeal.Gen Idealize.ShloMosaic Idealize.ShloMosaic.ValueIdx Cert.RowNet

/-- The affine part of a layer in transposed activation space, `Wᵀ · H + b`. -/
def affT {N K M : Nat} (d : DotDims ⟨2, ![N, K]⟩ ⟨2, ![K, M]⟩ ⟨2, ![N, M]⟩) (Wt : FVec Ideal ⟨2, ![N, K]⟩ .f32)
    (H : FVec Ideal ⟨2, ![K, M]⟩ .f32) (B : FVec Ideal ⟨2, ![N, 1]⟩ .f32)
    (hb : (⟨2, ![N, 1]⟩ : Shape).Broadcasts ⟨2, ![N, M]⟩) : FVec Ideal ⟨2, ![N, M]⟩ .f32 :=
  addf (matmul d none Wt H (constant ⟨2, ![N, M]⟩ .f32 0x00000000#32)) (broadcastTo ⟨2, ![N, M]⟩ B hb)

/-- A rectified layer in transposed activation space. -/
def layT {N K M : Nat} (d : DotDims ⟨2, ![N, K]⟩ ⟨2, ![K, M]⟩ ⟨2, ![N, M]⟩) (Wt : FVec Ideal ⟨2, ![N, K]⟩ .f32)
    (H : FVec Ideal ⟨2, ![K, M]⟩ .f32) (B : FVec Ideal ⟨2, ![N, 1]⟩ .f32)
    (hb : (⟨2, ![N, 1]⟩ : Shape).Broadcasts ⟨2, ![N, M]⟩) : FVec Ideal ⟨2, ![N, M]⟩ .f32 :=
  maximumf (affT d Wt H B hb) (broadcast ⟨2, ![N, M]⟩ (Scalar.ofBits .f32 0x00000000#32))

/-- The first layer: the samples enter sample-major and are contracted on their last axis, `W₁ᵀ · Xᵀ + b`, rectified. -/
def layT1 {N K M : Nat} (d : DotDims ⟨2, ![N, K]⟩ ⟨2, ![M, K]⟩ ⟨2, ![N, M]⟩) (Wt : FVec Ideal ⟨2, ![N, K]⟩ .f32)
    (X : FVec Ideal ⟨2, ![M, K]⟩ .f32) (B : FVec Ideal ⟨2, ![N, 1]⟩ .f32)
    (hb : (⟨2, ![N, 1]⟩ : Shape).Broadcasts ⟨2, ![N, M]⟩) : FVec Ideal ⟨2, ![N, M]⟩ .f32 :=
  maximumf (addf (matmul d none Wt X (constant ⟨2, ![N, M]⟩ .f32 0x00000000#32)) (broadcastTo ⟨2, ![N, M]⟩ B hb))
    (broadcast ⟨2, ![N, M]⟩ (Scalar.ofBits .f32 0x00000000#32))

/-- Entry `(j, p)` of the affine part: unit `j` on column `p`. -/
theorem affT_apply {N K M : Nat} (d : DotDims ⟨2, ![N, K]⟩ ⟨2, ![K, M]⟩ ⟨2, ![N, M]⟩) (hd : d = DotDims.plain N K M)
    (Wt : FVec Ideal ⟨2, ![N, K]⟩ .f32) (H : FVec Ideal ⟨2, ![K, M]⟩ .f32) (B : FVec Ideal ⟨2, ![N, 1]⟩ .f32)
    (hb : (⟨2, ![N, 1]⟩ : Shape).Broadcasts ⟨2, ![N, M]⟩) (j : Fin N) (p : Fin M) :
    affT d Wt H B hb (ix2 j p)
      = affineT (fun j k => Wt (ix2 j k)) (fun j => B (ix2 j (0 : Fin 1))) (fun k => H (ix2 k p)) j := by
  subst hd
  show FloatOps.matmul (DotDims.plain N K M) none Wt H (constant (F := Ideal) ⟨2, ![N, M]⟩ .f32 0x00000000#32) (ix2 j p)
      + broadcastTo ⟨2, ![N, M]⟩ B hb (ix2 j p) = _
  rw [DotRead.matmul_plain_zero_apply, KeepdimsLayout.broadcastTo_a1_ab_apply]
  rfl

/-- Entry `(j, p)` of a rectified layer: unit `j` on column `p`. -/
theorem layT_apply {N K M : Nat} (d : DotDims ⟨2, ![N, K]⟩ ⟨2, ![K, M]⟩ ⟨2, ![N, M]⟩) (hd : d = DotDims.plain N K M)
    (Wt : FVec Ideal ⟨2, ![N, K]⟩ .f32) (H : FVec Ideal ⟨2, ![K, M]⟩ .f32) (B : FVec Ideal ⟨2, ![N, 1]⟩ .f32)
    (hb : (⟨2, ![N, 1]⟩ : Shape).Broadcasts ⟨2, ![N, M]⟩) (j : Fin N) (p : Fin M) :
    layT d Wt H B hb (ix2 j p)
      = denseT (fun j k => Wt (ix2 j k)) (fun j => B (ix2 j (0 : Fin 1))) floor0 (fun k => H (ix2 k p)) j :=
  congrArg (max · floor0) (affT_apply d hd Wt H B hb j p)

/-- Entry `(j, p)` of the first layer: unit `j` on sample `p`, a ROW of the sample matrix. -/
theorem layT1_apply {N K M : Nat} (d : DotDims ⟨2, ![N, K]⟩ ⟨2, ![M, K]⟩ ⟨2, ![N, M]⟩) (hd : d = DotDims.transposedRhs N K M)
    (Wt : FVec Ideal ⟨2, ![N, K]⟩ .f32) (X : FVec Ideal ⟨2, ![M, K]⟩ .f32) (B : FVec Ideal ⟨2, ![N, 1]⟩ .f32)
    (hb : (⟨2, ![N, 1]⟩ : Shape).Broadcasts ⟨2, ![N, M]⟩) (j : Fin N) (p : Fin M) :
    layT1 d Wt X B hb (ix2 j p)
      = denseT (fun j k => Wt (ix2 j k)) (fun j => B (ix2 j (0 : Fin 1))) floor0 (fun k => X (ix2 p k)) j := by
  subst hd
  show max (FloatOps.matmul (DotDims.transposedRhs N K M) none Wt X (constant (F := Ideal) ⟨2, ![N, M]⟩ .f32 0x00000000#32) (ix2 j p)
      + broadcastTo ⟨2, ![N, M]⟩ B hb (ix2 j p)) floor0 = _
  rw [DotRead.matmul_transposedRhs_zero_apply, KeepdimsLayout.broadcastTo_a1_ab_apply]
  rfl

/-- The row before the logistic function is the nest of the four layers. -/
theorem pay2_eq (P0 : Vec Ideal S32x30 .f32) (P1 : Vec Ideal S16384x30 .f32) (P2 : Vec Ideal S32x1 .f32)
    (P3 : Vec Ideal S16x32 .f32) (P4 : Vec Ideal S16x1 .f32) (P5 : Vec Ideal S8x16 .f32) (P6 : Vec Ideal S8x1 .f32)
    (P7 : Vec Ideal S1x8 .f32) (P8 : Vec Ideal S1x1 .f32) :
    k0_pay2 (F := Ideal) P0 P1 P2 P3 P4 P5 P6 P7 P8
      = affT dot_S1x8_S8x16384_S1x16384_1_0_0_1_n_n (shapeCast S1x8 P7 shapeCasts_S1x8_S1x8)
          (layT dot_S8x16_S16x16384_S8x16384_1_0_0_1_n_n (shapeCast S8x16 P5 shapeCasts_S8x16_S8x16)
            (layT dot_S16x32_S32x16384_S16x16384_1_0_0_1_n_n (shapeCast S16x32 P3 shapeCasts_S16x32_S16x32)
              (layT1 dot_S32x30_S16384x30_S32x16384_1_1_0_0_n_n (shapeCast S32x30 P0 shapeCasts_S32x30_S32x30) P1
                (shapeCast S32x1 P2 shapeCasts_S32x1_S32x1) broadcasts_S32x1_S32x16384)
              (shapeCast S16x1 P4 shapeCasts_S16x1_S16x1) broadcasts_S16x1_S16x16384)
            (shapeCast S8x1 P6 shapeCasts_S8x1_S8x1) broadcasts_S8x1_S8x16384)
          P8 broadcasts_S1x1_S1x16384 := rfl

/-- Entry `(·, p)` of that row: the unit-major network's last affine unit on row `p` of the block of samples. -/
theorem pay2_apply (P0 : Vec Ideal S32x30 .f32) (P1 : Vec Ideal S16384x30 .f32) (P2 : Vec Ideal S32x1 .f32)
    (P3 : Vec Ideal S16x32 .f32) (P4 : Vec Ideal S16x1 .f32) (P5 : Vec Ideal S8x16 .f32) (P6 : Vec Ideal S8x1 .f32)
    (P7 : Vec Ideal S1x8 .f32) (P8 : Vec Ideal S1x1 .f32) (p : Fin 16384) :
    k0_pay2 (F := Ideal) P0 P1 P2 P3 P4 P5 P6 P7 P8 (ix2 (0 : Fin 1) p)
      = affineT (fun j k => P7 (ix2 j k)) (fun j => P8 (ix2 j (0 : Fin 1)))
          (denseT (fun j k => P5 (ix2 j k)) (fun j => P6 (ix2 j (0 : Fin 1))) floor0
            (denseT (fun j k => P3 (ix2 j k)) (fun j => P4 (ix2 j (0 : Fin 1))) floor0
              (denseT (fun j k => P0 (ix2 j k)) (fun j => P2 (ix2 j (0 : Fin 1))) floor0 (fun f => P1 (ix2 p f))))) 0 := by
  rw [pay2_eq]
  simp only [shapeCast_self]
  refine (affT_apply _ rfl P7 _ P8 _ 0 p).trans ?_
  refine congrArg (fun h => affineT (fun j k => P7 (ix2 j k)) (fun j => P8 (ix2 j (0 : Fin 1))) h 0) ?_
  refine (funext fun k => layT_apply _ rfl P5 _ P6 _ k p).trans ?_
  refine congrArg (denseT (fun j k => P5 (ix2 j k)) (fun j => P6 (ix2 j (0 : Fin 1))) floor0) ?_
  refine (funext fun k => layT_apply _ rfl P3 _ P4 _ k p).trans ?_
  refine congrArg (denseT (fun j k => P3 (ix2 j k)) (fun j => P4 (ix2 j (0 : Fin 1))) floor0) ?_
  exact funext fun k => layT1_apply _ rfl P0 P1 P2 _ k p

/-- ENTRY `(p, ·)` OF THE STORED COLUMN is the unit-major network on row `p` of the block of samples: the block as one
    index-by-index function of the loads reads the row before the logistic function at `(0, p)`. -/
theorem stored_apply (P0 : Vec Ideal S32x30 .f32) (P1 : Vec Ideal S16384x30 .f32) (P2 : Vec Ideal S32x1 .f32)
    (P3 : Vec Ideal S16x32 .f32) (P4 : Vec Ideal S16x1 .f32) (P5 : Vec Ideal S8x16 .f32) (P6 : Vec Ideal S8x1 .f32)
    (P7 : Vec Ideal S1x8 .f32) (P8 : Vec Ideal S1x1 .f32) (p : Fin 16384) (u : Fin 1) :
    Cert.KernelIdeal.Value.E9 (F := Ideal) P0 P1 P2 P3 P4 P5 P6 P7 P8 (ix2 p u)
      = netT (fun j k => P0 (ix2 j k)) (fun j => P2 (ix2 j (0 : Fin 1))) (fun j k => P3 (ix2 j k)) (fun j => P4 (ix2 j (0 : Fin 1)))
          (fun j k => P5 (ix2 j k)) (fun j => P6 (ix2 j (0 : Fin 1))) (fun j k => P7 (ix2 j k)) (fun j => P8 (ix2 j (0 : Fin 1)))
          floor0 (fun f => P1 (ix2 p f)) := by
  show Ideal.logistic (k0_pay2 (F := Ideal) P0 P1 P2 P3 P4 P5 P6 P7 P8 (Cert.KernelIdeal.Value.ix9_0 (ix2 p u))) = _
  have hi : Cert.KernelIdeal.Value.ix9_0 (ix2 p u) = ix2 (0 : Fin 1) p :=
    funext fun a => Fin.ext (by match a with | ⟨0, _⟩ => rfl | ⟨1, _⟩ => rfl)
  rw [hi, pay2_apply]
  rfl

end Cert.KernelIdeal.Block

end
-- ==== Proof.KernelArray.lean ====
/-
  From the blocks to the whole array, for the unit-major program.

  Before the region the host transposes the seven weight and bias arrays that the body wants unit-major; the region
  finds each at its transpose, so entry `(j, k)` of such a window's block is entry `(k, j)` of the argument. The grid
  has 16 points; point `t` stages rows `16384 t … 16384 t + 16383` of the sample matrix, every other array whole, and
  writes back the same rows of the result column. What it writes back is the stored column of the body on those
  blocks: at entry `p`, the unit-major network on row `16384 t + p` of the sample matrix with the transposed launch
  weights, which is the network itself with the launch weights — block `t` of the one function `G` of the nine
  argument arrays. Row `r` of the result lies in the block of point `r / 16384`, so the blocks cover the array and it
  ends holding `G`.
-/
import proofs.«164274_g2000605162513149_pallasbulk_511_5_alg».proof.Proof.Gen.KernelIdeal.Value
import proofs.«164274_g2000605162513149_pallasbulk_511_5_alg».proof.Proof.KernelBlock
import Idealize.ShloMosaic.Lib.Pipeline.Value
import Idealize.ShloMosaic.Lib.ValueLayout
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo Cert.RowNet
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the sample window and the result window sit at block `(t, 0)`, every weight
    and bias window at block `(0, 0)`. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0) :=
  (by decide +kernel : ∀ t : Fin grid0.N, _)

/-- The result array: the network, with the launch weights, on every row of the launch sample matrix. -/
abbrev result (c : Dev nD) : Buf (Elt Ideal) ((c : Thread nD τ).loc main_v7) :=
  G (m ((c : Thread nD τ).loc main_arg0) : S262144x30.Idx → EReal)
    (m ((c : Thread nD τ).loc main_arg1) : S30x32.Idx → EReal)
    (m ((c : Thread nD τ).loc main_arg2) : S1x32.Idx → EReal)
    (m ((c : Thread nD τ).loc main_arg3) : S32x16.Idx → EReal)
    (m ((c : Thread nD τ).loc main_arg4) : S1x16.Idx → EReal)
    (m ((c : Thread nD τ).loc main_arg5) : S16x8.Idx → EReal)
    (m ((c : Thread nD τ).loc main_arg6) : S1x8.Idx → EReal)
    (m ((c : Thread nD τ).loc main_arg7) : S8x1.Idx → EReal)
    (m ((c : Thread nD τ).loc main_arg8) : S1x1.Idx → EReal)

/-! ## The region's entry contents -/

/-- The region finds `main_v0` holding argument 1 transposed: the one host operation that writes it. -/
theorem V_main_v0 (c : Dev nD) : (V m c main_v0 : S32x30.Idx → EReal)
    = transpose S32x30 [1, 0] (m ((c : Thread nD τ).loc main_arg1) : S30x32.Idx → EReal) transposes_S30x32_S32x30_1_0 := by
  dsimp only [V, hostOps0]; after_results

/-- The region finds `main_v1` holding argument 2 transposed: the one host operation that writes it. -/
theorem V_main_v1 (c : Dev nD) : (V m c main_v1 : S32x1.Idx → EReal)
    = transpose S32x1 [1, 0] (m ((c : Thread nD τ).loc main_arg2) : S1x32.Idx → EReal) transposes_S1x32_S32x1_1_0 := by
  dsimp only [V, hostOps0]; after_results

/-- The region finds `main_v2` holding argument 3 transposed: the one host operation that writes it. -/
theorem V_main_v2 (c : Dev nD) : (V m c main_v2 : S16x32.Idx → EReal)
    = transpose S16x32 [1, 0] (m ((c : Thread nD τ).loc main_arg3) : S32x16.Idx → EReal) transposes_S32x16_S16x32_1_0 := by
  dsimp only [V, hostOps0]; after_results

/-- The region finds `main_v3` holding argument 4 transposed: the one host operation that writes it. -/
theorem V_main_v3 (c : Dev nD) : (V m c main_v3 : S16x1.Idx → EReal)
    = transpose S16x1 [1, 0] (m ((c : Thread nD τ).loc main_arg4) : S1x16.Idx → EReal) transposes_S1x16_S16x1_1_0 := by
  dsimp only [V, hostOps0]; after_results

/-- The region finds `main_v4` holding argument 5 transposed: the one host operation that writes it. -/
theorem V_main_v4 (c : Dev nD) : (V m c main_v4 : S8x16.Idx → EReal)
    = transpose S8x16 [1, 0] (m ((c : Thread nD τ).loc main_arg5) : S16x8.Idx → EReal) transposes_S16x8_S8x16_1_0 := by
  dsimp only [V, hostOps0]; after_results

/-- The region finds `main_v5` holding argument 6 transposed: the one host operation that writes it. -/
theorem V_main_v5 (c : Dev nD) : (V m c main_v5 : S8x1.Idx → EReal)
    = transpose S8x1 [1, 0] (m ((c : Thread nD τ).loc main_arg6) : S1x8.Idx → EReal) transposes_S1x8_S8x1_1_0 := by
  dsimp only [V, hostOps0]; after_results

/-- The region finds `main_v6` holding argument 7 transposed: the one host operation that writes it. -/
theorem V_main_v6 (c : Dev nD) : (V m c main_v6 : S1x8.Idx → EReal)
    = transpose S1x8 [1, 0] (m ((c : Thread nD τ).loc main_arg7) : S8x1.Idx → EReal) transposes_S8x1_S1x8_1_0 := by
  dsimp only [V, hostOps0]; after_results

/-! ## The windows' blocks -/

/-- Entry `(p, f)` of the sample window's block at point `t` is entry `(16384 t + p, f)` of the sample matrix. -/
theorem iblk0_apply (c : Dev nD) (t : Fin cfg0.N) (p : Fin 16384) (f : Fin 30) (r : Fin 262144) (hr : r.val = t.val * 16384 + p.val) :
    (iblk m c 0 t : Vec Ideal S16384x30 .f32) (ix2 p f) = (m ((c : Thread nD τ).loc main_arg0) : S262144x30.Idx → EReal) (ix2 r f) := by
  have h0 : win0_0.index t (0 : Fin 2) = t.val := (idx_facts t).1.1
  have h1 : win0_0.index t (1 : Fin 2) = 0 := (idx_facts t).1.2
  show V m c main_arg0 (((cfg0.win 0).blk t).view.emb (ix2 p f)) = _
  rw [V_main_arg0 m c]
  refine congrArg (m ((c : Thread nD τ).loc main_arg0) : S262144x30.Idx → EReal) ?_
  funext a; apply Fin.ext
  match a with
  | ⟨0, _⟩ => show win0_0.index t (0 : Fin 2) * 16384 + 1 * p.val = r.val; rw [h0, hr]; omega
  | ⟨1, _⟩ => show win0_0.index t (1 : Fin 2) * 30 + 1 * f.val = f.val; rw [h1]; omega

/-- Window 1's block is its whole array at every point, and the array is argument 1 transposed: entry `(j, k)` of
    the block is entry `(k, j)` of the argument. -/
theorem iblk1_apply (c : Dev nD) (t : Fin cfg0.N) (j : Fin 32) (k : Fin 30) :
    (iblk m c 1 t : Vec Ideal S32x30 .f32) (ix2 j k) = (m ((c : Thread nD τ).loc main_arg1) : S30x32.Idx → EReal) (ix2 k j) := by
  have h0 : win0_1.index t (0 : Fin 2) = 0 := (idx_facts t).2.1.1
  have h1 : win0_1.index t (1 : Fin 2) = 0 := (idx_facts t).2.1.2
  have he : ((cfg0.win 1).blk t).view.emb (ix2 j k) = (ix2 j k : S32x30.Idx) := by
    funext a; apply Fin.ext
    match a with
    | ⟨0, _⟩ => show win0_1.index t (0 : Fin 2) * 32 + 1 * j.val = j.val; rw [h0]; omega
    | ⟨1, _⟩ => show win0_1.index t (1 : Fin 2) * 30 + 1 * k.val = k.val; rw [h1]; omega
  show (V m c main_v0 : S32x30.Idx → EReal) (((cfg0.win 1).blk t).view.emb (ix2 j k)) = _
  rw [he, V_main_v0 m c]
  exact transpose_ix2_apply _ _ j k

/-- Window 2's block is its whole array at every point, and the array is argument 2 transposed: entry `(j, k)` of
    the block is entry `(k, j)` of the argument. -/
theorem iblk2_apply (c : Dev nD) (t : Fin cfg0.N) (j : Fin 32) (k : Fin 1) :
    (iblk m c 2 t : Vec Ideal S32x1 .f32) (ix2 j k) = (m ((c : Thread nD τ).loc main_arg2) : S1x32.Idx → EReal) (ix2 k j) := by
  have h0 : win0_2.index t (0 : Fin 2) = 0 := (idx_facts t).2.2.1.1
  have h1 : win0_2.index t (1 : Fin 2) = 0 := (idx_facts t).2.2.1.2
  have he : ((cfg0.win 2).blk t).view.emb (ix2 j k) = (ix2 j k : S32x1.Idx) := by
    funext a; apply Fin.ext
    match a with
    | ⟨0, _⟩ => show win0_2.index t (0 : Fin 2) * 32 + 1 * j.val = j.val; rw [h0]; omega
    | ⟨1, _⟩ => show win0_2.index t (1 : Fin 2) * 1 + 1 * k.val = k.val; rw [h1]; omega
  show (V m c main_v1 : S32x1.Idx → EReal) (((cfg0.win 2).blk t).view.emb (ix2 j k)) = _
  rw [he, V_main_v1 m c]
  exact transpose_ix2_apply _ _ j k

/-- Window 3's block is its whole array at every point, and the array is argument 3 transposed: entry `(j, k)` of
    the block is entry `(k, j)` of the argument. -/
theorem iblk3_apply (c : Dev nD) (t : Fin cfg0.N) (j : Fin 16) (k : Fin 32) :
    (iblk m c 3 t : Vec Ideal S16x32 .f32) (ix2 j k) = (m ((c : Thread nD τ).loc main_arg3) : S32x16.Idx → EReal) (ix2 k j) := by
  have h0 : win0_3.index t (0 : Fin 2) = 0 := (idx_facts t).2.2.2.1.1
  have h1 : win0_3.index t (1 : Fin 2) = 0 := (idx_facts t).2.2.2.1.2
  have he : ((cfg0.win 3).blk t).view.emb (ix2 j k) = (ix2 j k : S16x32.Idx) := by
    funext a; apply Fin.ext
    match a with
    | ⟨0, _⟩ => show win0_3.index t (0 : Fin 2) * 16 + 1 * j.val = j.val; rw [h0]; omega
    | ⟨1, _⟩ => show win0_3.index t (1 : Fin 2) * 32 + 1 * k.val = k.val; rw [h1]; omega
  show (V m c main_v2 : S16x32.Idx → EReal) (((cfg0.win 3).blk t).view.emb (ix2 j k)) = _
  rw [he, V_main_v2 m c]
  exact transpose_ix2_apply _ _ j k

/-- Window 4's block is its whole array at every point, and the array is argument 4 transposed: entry `(j, k)` of
    the block is entry `(k, j)` of the argument. -/
theorem iblk4_apply (c : Dev nD) (t : Fin cfg0.N) (j : Fin 16) (k : Fin 1) :
    (iblk m c 4 t : Vec Ideal S16x1 .f32) (ix2 j k) = (m ((c : Thread nD τ).loc main_arg4) : S1x16.Idx → EReal) (ix2 k j) := by
  have h0 : win0_4.index t (0 : Fin 2) = 0 := (idx_facts t).2.2.2.2.1.1
  have h1 : win0_4.index t (1 : Fin 2) = 0 := (idx_facts t).2.2.2.2.1.2
  have he : ((cfg0.win 4).blk t).view.emb (ix2 j k) = (ix2 j k : S16x1.Idx) := by
    funext a; apply Fin.ext
    match a with
    | ⟨0, _⟩ => show win0_4.index t (0 : Fin 2) * 16 + 1 * j.val = j.val; rw [h0]; omega
    | ⟨1, _⟩ => show win0_4.index t (1 : Fin 2) * 1 + 1 * k.val = k.val; rw [h1]; omega
  show (V m c main_v3 : S16x1.Idx → EReal) (((cfg0.win 4).blk t).view.emb (ix2 j k)) = _
  rw [he, V_main_v3 m c]
  exact transpose_ix2_apply _ _ j k

/-- Window 5's block is its whole array at every point, and the array is argument 5 transposed: entry `(j, k)` of
    the block is entry `(k, j)` of the argument. -/
theorem iblk5_apply (c : Dev nD) (t : Fin cfg0.N) (j : Fin 8) (k : Fin 16) :
    (iblk m c 5 t : Vec Ideal S8x16 .f32) (ix2 j k) = (m ((c : Thread nD τ).loc main_arg5) : S16x8.Idx → EReal) (ix2 k j) := by
  have h0 : win0_5.index t (0 : Fin 2) = 0 := (idx_facts t).2.2.2.2.2.1.1
  have h1 : win0_5.index t (1 : Fin 2) = 0 := (idx_facts t).2.2.2.2.2.1.2
  have he : ((cfg0.win 5).blk t).view.emb (ix2 j k) = (ix2 j k : S8x16.Idx) := by
    funext a; apply Fin.ext
    match a with
    | ⟨0, _⟩ => show win0_5.index t (0 : Fin 2) * 8 + 1 * j.val = j.val; rw [h0]; omega
    | ⟨1, _⟩ => show win0_5.index t (1 : Fin 2) * 16 + 1 * k.val = k.val; rw [h1]; omega
  show (V m c main_v4 : S8x16.Idx → EReal) (((cfg0.win 5).blk t).view.emb (ix2 j k)) = _
  rw [he, V_main_v4 m c]
  exact transpose_ix2_apply _ _ j k

/-- Window 6's block is its whole array at every point, and the array is argument 6 transposed: entry `(j, k)` of
    the block is entry `(k, j)` of the argument. -/
theorem iblk6_apply (c : Dev nD) (t : Fin cfg0.N) (j : Fin 8) (k : Fin 1) :
    (iblk m c 6 t : Vec Ideal S8x1 .f32) (ix2 j k) = (m ((c : Thread nD τ).loc main_arg6) : S1x8.Idx → EReal) (ix2 k j) := by
  have h0 : win0_6.index t (0 : Fin 2) = 0 := (idx_facts t).2.2.2.2.2.2.1.1
  have h1 : win0_6.index t (1 : Fin 2) = 0 := (idx_facts t).2.2.2.2.2.2.1.2
  have he : ((cfg0.win 6).blk t).view.emb (ix2 j k) = (ix2 j k : S8x1.Idx) := by
    funext a; apply Fin.ext
    match a with
    | ⟨0, _⟩ => show win0_6.index t (0 : Fin 2) * 8 + 1 * j.val = j.val; rw [h0]; omega
    | ⟨1, _⟩ => show win0_6.index t (1 : Fin 2) * 1 + 1 * k.val = k.val; rw [h1]; omega
  show (V m c main_v5 : S8x1.Idx → EReal) (((cfg0.win 6).blk t).view.emb (ix2 j k)) = _
  rw [he, V_main_v5 m c]
  exact transpose_ix2_apply _ _ j k

/-- Window 7's block is its whole array at every point, and the array is argument 7 transposed: entry `(j, k)` of
    the block is entry `(k, j)` of the argument. -/
theorem iblk7_apply (c : Dev nD) (t : Fin cfg0.N) (j : Fin 1) (k : Fin 8) :
    (iblk m c 7 t : Vec Ideal S1x8 .f32) (ix2 j k) = (m ((c : Thread nD τ).loc main_arg7) : S8x1.Idx → EReal) (ix2 k j) := by
  have h0 : win0_7.index t (0 : Fin 2) = 0 := (idx_facts t).2.2.2.2.2.2.2.1.1
  have h1 : win0_7.index t (1 : Fin 2) = 0 := (idx_facts t).2.2.2.2.2.2.2.1.2
  have he : ((cfg0.win 7).blk t).view.emb (ix2 j k) = (ix2 j k : S1x8.Idx) := by
    funext a; apply Fin.ext
    match a with
    | ⟨0, _⟩ => show win0_7.index t (0 : Fin 2) * 1 + 1 * j.val = j.val; rw [h0]; omega
    | ⟨1, _⟩ => show win0_7.index t (1 : Fin 2) * 8 + 1 * k.val = k.val; rw [h1]; omega
  show (V m c main_v6 : S1x8.Idx → EReal) (((cfg0.win 7).blk t).view.emb (ix2 j k)) = _
  rw [he, V_main_v6 m c]
  exact transpose_ix2_apply _ _ j k

/-- Window 8's block is the last bias, a single cell, as launched. -/
theorem iblk8_apply (c : Dev nD) (t : Fin cfg0.N) (j : Fin 1) :
    (iblk m c 8 t : Vec Ideal S1x1 .f32) (ix2 j (0 : Fin 1)) = (m ((c : Thread nD τ).loc main_arg8) : S1x1.Idx → EReal) (ix2 (0 : Fin 1) j) := by
  have hj : j = 0 := Subsingleton.elim _ _
  subst hj
  have h0 : win0_8.index t (0 : Fin 2) = 0 := (idx_facts t).2.2.2.2.2.2.2.2.1.1
  have h1 : win0_8.index t (1 : Fin 2) = 0 := (idx_facts t).2.2.2.2.2.2.2.2.1.2
  show V m c main_arg8 (((cfg0.win 8).blk t).view.emb (ix2 (0 : Fin 1) (0 : Fin 1))) = _
  rw [V_main_arg8 m c]
  refine congrArg (m ((c : Thread nD τ).loc main_arg8) : S1x1.Idx → EReal) ?_
  funext a; apply Fin.ext
  match a with
  | ⟨0, _⟩ => show win0_8.index t (0 : Fin 2) * 1 + 1 * 0 = 0; rw [h0]
  | ⟨1, _⟩ => show win0_8.index t (1 : Fin 2) * 1 + 1 * 0 = 0; rw [h1]

/-! ## From blocks to the array -/

/-- WHAT POINT `t` WRITES BACK is block `t` of `G` of the launch arrays. -/
theorem flushed_eq (c : Dev nD) (t : Fin cfg0.N) :
    (dats m 0 c).flushed 9 t = ((cfg0.win 9).blk t).view.read (Elt Ideal) (result m c) := by
  rw [Cert.KernelIdeal.Value.flushed9]
  unfold out0_9
  simp only [View.ld_unit_zero (S := S16384x30) hz, View.ld_unit_zero (S := S32x30) hz, View.ld_unit_zero (S := S32x1) hz, View.ld_unit_zero (S := S16x32) hz, View.ld_unit_zero (S := S16x1) hz, View.ld_unit_zero (S := S8x16) hz, View.ld_unit_zero (S := S8x1) hz, View.ld_unit_zero (S := S1x8) hz, View.ld_unit_zero (S := S1x1) hz]
  refine funext fun (y : S16384x1.Idx) => ?_
  obtain ⟨p, u, rfl⟩ : ∃ (p : Fin 16384) (u : Fin 1), y = ix2 p u := ⟨y 0, y 1, eq_ix2 y⟩
  show View.canon [⟨r0_9, k0_pay1 (k0_pay2 (F := Ideal) (iblk m c 1 t) (iblk m c 0 t) (iblk m c 2 t) (iblk m c 3 t) (iblk m c 4 t) (iblk m c 5 t) (iblk m c 6 t) (iblk m c 7 t) (iblk m c 8 t))⟩] (ix2 p u)
    = result m c (((cfg0.win 9).blk t).view.emb (ix2 p u))
  refine (Cert.KernelIdeal.Value.canon9_eq (F := Ideal) (iblk m c 1 t) (iblk m c 0 t) (iblk m c 2 t) (iblk m c 3 t) (iblk m c 4 t) (iblk m c 5 t) (iblk m c 6 t) (iblk m c 7 t) (iblk m c 8 t) (ix2 p u)).trans ?_
  refine (Block.stored_apply (iblk m c 1 t) (iblk m c 0 t) (iblk m c 2 t) (iblk m c 3 t) (iblk m c 4 t) (iblk m c 5 t) (iblk m c 6 t) (iblk m c 7 t) (iblk m c 8 t) p u).trans ?_
  refine (netT_eq _ _ _ _ _ _ _ _ floor0 _).trans ?_
  have h9 : win0_9.index t (0 : Fin 2) = t.val := (idx_facts t).2.2.2.2.2.2.2.2.2.1
  have hr : ((((cfg0.win 9).blk t).view.emb (ix2 p u)) 0).val = t.val * 16384 + p.val := by
    show win0_9.index t (0 : Fin 2) * 16384 + 1 * p.val = _
    rw [h9]; omega
  exact net_congr floor0
    (funext fun k => funext fun j => iblk1_apply m c t j k) (funext fun j => iblk2_apply m c t j 0)
    (funext fun k => funext fun j => iblk3_apply m c t j k) (funext fun j => iblk4_apply m c t j 0)
    (funext fun k => funext fun j => iblk5_apply m c t j k) (funext fun j => iblk6_apply m c t j 0)
    (funext fun k => funext fun j => iblk7_apply m c t j k) (funext fun j => iblk8_apply m c t j)
    (funext fun f => iblk0_apply m c t p f _ hr)

/-- An index of the result lies in point `t`'s block iff each coordinate lies in the block's range on its axis. -/
theorem mem_blk (t : Fin cfg0.N) (i : S262144x1.Idx) :
    i ∈ ((cfg0.win 9).blk t).view.set ↔ ∀ a : Fin 2, win0_9.index t a * S16384x1.size a ≤ (i a).val ∧ (i a).val < win0_9.index t a * S16384x1.size a + S16384x1.size a := by
  show i ∈ ((View.whole main_v7).slice (win0_9.rect t)).set ↔ _
  rw [View.set_slice_whole, Rect.mem_set_unit]
  exact Iff.rfl

/-- Row `r` of the result lies in the block of point `r / 16384`. -/
theorem cover (i : S262144x1.Idx) : ∃ t : Fin cfg0.N, (cfg0.win 9).flush t = true ∧ i ∈ ((cfg0.win 9).blk t).view.set := by
  have hN : cfg0.N = 16 := N_0
  have hi0 : (i 0).val < 262144 := (i 0).isLt
  have hi1 : (i 1).val < 1 := (i 1).isLt
  obtain ⟨T, hT⟩ : ∃ T : Fin cfg0.N, T.val = (i 0).val / 16384 := ⟨⟨(i 0).val / 16384, by omega⟩, rfl⟩
  have h90 : win0_9.index T (0 : Fin 2) = T.val := (idx_facts T).2.2.2.2.2.2.2.2.2.1
  have h91 : win0_9.index T (1 : Fin 2) = 0 := (idx_facts T).2.2.2.2.2.2.2.2.2.2
  refine ⟨T, flush0_9 T, ?_⟩
  rw [mem_blk]
  intro a
  match a with
  | ⟨0, _⟩ => show win0_9.index T (0 : Fin 2) * 16384 ≤ (i 0).val ∧ (i 0).val < win0_9.index T (0 : Fin 2) * 16384 + 16384; rw [h90, hT]; omega
  | ⟨1, _⟩ => show win0_9.index T (1 : Fin 2) * 1 ≤ (i 1).val ∧ (i 1).val < win0_9.index T (1 : Fin 2) * 1 + 1; rw [h91]; omega

/-- So the result array ends holding `G` of the launch arrays. -/
theorem final (c : Dev nD) : (dats m 0 c).arrAt 9 cfg0.N = result m c :=
  (dats m 0 c).arrAt_eq_of_cover 9 (result m c) (fun t _ => flushed_eq m c t) cover

/-- The run, read: the result array at `G` of the launch arrays, the arguments unchanged. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Cert.KernelIdeal.Value.run_blocks m ρ)

end Cert.KernelIdeal.Whole

end
-- ==== Proof.lean ====
/-
  The two programs compute one function of their nine arguments, over the extended reals.

  Both evaluate the same four-layer network on each of the 262144 rows of the sample matrix `x`: three rectified affine
  layers (30 → 32 → 16 → 8), one affine unit, and the logistic function. The reference keeps a block of 2048 samples
  as the rows of its activations and multiplies the weights on the right, `max (H · W + b, 0)`. The kernel keeps a block
  of 16384 samples as the COLUMNS of its activations: the host first transposes every weight and bias array, the first
  layer contracts `W₁ᵀ` with the sample block on the samples' last axis, each later layer multiplies a transposed weight
  matrix on the left, `max (Wᵀ · H + b, 0)`, and the last row, after the logistic function, is stored as a column.

  At the ideal values a product accumulated into zero is the plain finite sum of the operands' products, a change of
  tiling changes nothing, and reading a transposed array at `(j, k)` is reading the array at `(k, j)`. So entry `r` of
  the kernel's result is `σ (∑ₖ w₄[k] · h₃[k] + b₄)` with `h₃[k] = max (∑ⱼ w₃[j, k] · h₂[j] + b₃[k], 0)` and so on down to
  the row `x[r, ·]`, each product written weight first, and entry `r` of the reference's result is the same expression
  with each product written activation first. The two agree term by term under the same sums because multiplication of
  extended reals commutes; nothing is distributed, cancelled or moved across a sum, so the infinities need no care and
  the finiteness of the inputs is never used.

  `Proof/RowSpec.lean` states the network on one sample in both spellings and proves them equal, and defines `G`, the
  result array as one function of the argument arrays. `Proof/RefBlock.lean` and `Proof/KernelBlock.lean` read what each
  body stores, entry by entry, as that sample function of its loaded blocks (over `Proof/LibDotRead.lean`, a product
  into zero read at an entry, and `Proof/LibKeepdims.lean`, a column laid along the columns). `Proof/RefArray.lean` and
  `Proof/KernelArray.lean` carry the blocks to the whole array: each grid point writes back its block of `G`, and the
  blocks cover the result. Here the two runs are set side by side at the same `G`.

  Each program runs, faults nowhere and leaves its arguments as launched by its generated frame certificate; the kernel's
  idealization rewrote no operation, so there is nothing to preserve beyond the program's own text read at the ideal
  values.
-/
import proofs.«164274_g2000605162513149_pallasbulk_511_5_alg».proof.Defs
import proofs.«164274_g2000605162513149_pallasbulk_511_5_alg».proof.Proof.Gen.Kernel
import proofs.«164274_g2000605162513149_pallasbulk_511_5_alg».proof.Proof.Gen.Kernel.Frame
import proofs.«164274_g2000605162513149_pallasbulk_511_5_alg».proof.Proof.Gen.KernelIdeal
import proofs.«164274_g2000605162513149_pallasbulk_511_5_alg».proof.Proof.Gen.KernelIdeal.Frame
import proofs.«164274_g2000605162513149_pallasbulk_511_5_alg».proof.Proof.Gen.KernelIdeal.Value
import proofs.«164274_g2000605162513149_pallasbulk_511_5_alg».proof.Proof.Gen.ReferenceIdeal
import proofs.«164274_g2000605162513149_pallasbulk_511_5_alg».proof.Proof.Gen.ReferenceIdeal.Frame
import proofs.«164274_g2000605162513149_pallasbulk_511_5_alg».proof.Proof.Gen.ReferenceIdeal.Value
import proofs.«164274_g2000605162513149_pallasbulk_511_5_alg».proof.Proof.Gen.Pre_finite_inputs
import proofs.«164274_g2000605162513149_pallasbulk_511_5_alg».proof.Proof.RefArray
import proofs.«164274_g2000605162513149_pallasbulk_511_5_alg».proof.Proof.KernelArray

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- So does the reference read at the ideal values. -/
theorem frame_referenceIdeal : Cert.frame_ReferenceIdeal := fun m ρ _ => Cert.ReferenceIdeal.Gen.frame m ρ

/-- The idealization rewrote nothing. -/
theorem preserves : Cert.preserves_Kernel_KernelIdeal := trivial

/-- From memories that agree on the nine arguments both programs end with the result array at `G` of those
    arguments: the kernel's run and the reference's run, each read back to the network on every row. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun r h c => ⟨(h c).1.trans ?_, (h c).2⟩)
    (Cert.ReferenceIdeal.Whole.run m' ρ')
  obtain ⟨e0, e1, e2, e3, e4, e5, e6, e7, e8⟩ := hagree c
  show Cert.ReferenceIdeal.Whole.result m' c = Cert.KernelIdeal.Whole.result m c
  unfold Cert.ReferenceIdeal.Whole.result Cert.KernelIdeal.Whole.result
  rw [e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
